-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S4096x1 : Shape := ⟨2, ![4096, 1]⟩
abbrev S512x4096 : Shape := ⟨2, ![512, 4096]⟩
abbrev S512x1 : Shape := ⟨2, ![512, 1]⟩
abbrev S512 : Shape := ⟨1, ![512]⟩
abbrev S1x4096 : Shape := ⟨2, ![1, 4096]⟩
abbrev S1024x256 : Shape := ⟨2, ![1024, 256]⟩
abbrev S1x256 : Shape := ⟨2, ![1, 256]⟩
abbrev S256x2048 : Shape := ⟨2, ![256, 2048]⟩
abbrev S1024x2048 : Shape := ⟨2, ![1024, 2048]⟩

abbrev nBuf : Space → Nat
  | .hbm => 7
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x1, .f32⟩
  | .hbm, ⟨4, _⟩ => ⟨S1x4096, .f32⟩
  | .hbm, ⟨5, _⟩ => ⟨S4096x4096, .bf16⟩
  | .hbm, ⟨6, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x256, .f32⟩
  | .local _ .vmem, ⟨9, _⟩ => ⟨S1x256, .f32⟩
  | .local _ .vmem, ⟨10, _⟩ => ⟨S256x2048, .bf16⟩
  | .local _ .vmem, ⟨11, _⟩ => ⟨S256x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![4, 2, 16], ![false, false, false]⟩

def k1_cond2 (i : grid1.Coords) : BitVec 1 :=
  let arg2 : BitVec 32 := BitVec.ofNat 32 (i 2).val
  let c15_i32 : BitVec 32 := 15#32
  let v37 : BitVec 1 := Scalar.cmpi .eq arg2 c15_i32
  let v38 : BitVec 32 := Scalar.extui v37
  let c0_i32_16 : BitVec 32 := 0#32
  let v39 : BitVec 1 := Scalar.cmpi .ne v38 c0_i32_16
  v39

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S4096x1_S1x4096 : S4096x1.ShapeCasts S1x4096
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x256_d0_w32 : S1024x256.Iotas .tc 32 [0]
  iota_S1024x256_d1_w32 : S1024x256.Iotas .tc 32 [1]
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x4096.size a
  hwx1_0 : ∀ i : grid1.Coords, EltTy.bits .f32 = 32 ∨ (Rect.block (s := S4096x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x4096.size a
  hwx1_1 : ∀ i : grid1.Coords, EltTy.bits .f32 = 32 ∨ (Rect.block (s := S4096x4096) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x4096.size a
  hwx1_2 : ∀ i : grid1.Coords, EltTy.bits .f32 = 32 ∨ (Rect.block (s := S1x4096) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x4096.size a
  hwx1_3 : ∀ i : grid1.Coords, EltTy.bits .bf16 = 32 ∨ (Rect.block (s := S4096x4096) S256x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S4096x4096.size a
  hwx1_4 : ∀ i : grid1.Coords, EltTy.bits .f32 = 32 ∨ (Rect.block (s := S4096x4096) S1024x2048.size (cc1_transform_4 i) (hinb1_4 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BitsDegree.lean ====
/-
  The degree pass as a pipeline, at any float instance.

  The first kernel walks A in eight blocks of 512 rows.  At each grid point it reads the whole 512 × 4096 block,
  sums every row, and stores 1 / (sum + 1) into the 512 × 1 output block; nothing is carried from one point to the
  next.  This module states what the output block holds after the body (the one store read back), proves the body's
  triple by running it, and packages the per-point facts as the pipeline's proof data at the contents `V` the
  region is entered from.
-/
import proofs.«101424_j75093208203291_2_alg».proof.Proof.Gen.Kernel.Launch
import proofs.«101424_j75093208203291_2_alg».proof.Proof.Gen.Kernel.Skeleton
import proofs.«101424_j75093208203291_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds A's block at every point, whatever proof data has `V`'s array and leaves the
    block in place: the block is fetched at every point and the body does not write it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two rectangles: the whole input block and the whole output block -/

abbrev rIn0 : Rect S512x4096 := Rect.unit (s := S512x4096) ![0, 0] S512x4096.size inb_S512x4096_S512x4096_0_0
abbrev rOut0 : Rect S512x1 := Rect.unit (s := S512x1) ![0, 0] S512x1.size inb_S512x1_S512x1_0_0

/-- The output block after the body: its one store, of the inverse degrees of the 512 rows just read. -/
def out0_1 (x0 : Vec F S512x4096 .f32) : Vec F S512x1 .f32 :=
  View.canon [⟨rOut0, k0_pay1 (View.ld x0 rIn0)⟩]

/-- That store covers the output block. -/
theorem cover0_1 (p0 : Vec F S512x1 .f32) (y : S512x1.Idx) :
    ∃ pc ∈ ([⟨rOut0, p0⟩] : List (View.Piece (Elt F) S512x1 .f32)), y ∈ pc.1.set :=
  View.cover_of_tiled [⟨rOut0, p0⟩] S512x1.size (by rfl) y

/-! ## The body's triple -/

set_option maxHeartbeats 1000000 in
/-- On whole staging buffers, the input's at contents `x0` and the output's at anything, the body runs to the end
    leaving the input as it was and the output at `out0_1 x0`. -/
theorem sound_kernel0 (c : Dev nD) (E : Set ℕ) (i : grid0.Coords) (arg1 : Memref sig .tc .vmem S512x4096 .f32) (harg1 : arg1.IsWhole) (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the degree pass on core `c`: the arrays as the region finds them; after the body at point `t`
    the input's buffer at A's block and the output's at the block's inverse degrees; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds A's block, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsFusedRuns.lean ====
/-
  The fused pass's body, case by case, at any float instance.

  The second kernel's grid is 4 × 2 × 16: a 1024-row band of the result, a 2048-column half, and one of sixteen
  256-wide slices of the contraction.  Its body keeps a 1024 × 2048 accumulator in a buffer of its own that lives
  across grid points.  At a band's first slice it stores zeros there; at every slice it adds the slice's partial
  product; at the last slice it copies the accumulator into the output block.  So a point is in one of three cases:
  first slice (A), a middle slice (B), last slice (C).  This module decides the two conditions over the grid, says
  where the output window is idle, and runs the body once per case, recording the stores each case leaves in the
  accumulator and in the output block.
-/
import proofs.«101424_j75093208203291_2_alg».proof.Proof.Gen.Kernel.Launch
import proofs.«101424_j75093208203291_2_alg».proof.Proof.Gen.Kernel.Skeleton
import proofs.«101424_j75093208203291_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the 128 grid points -/

/-- "this is the band's first slice": the body's first conditional. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "this is the band's last slice": the body's second conditional. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a band's last slice the output window is idle: nothing is stored into it and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At a band's last slice it is live. -/
theorem liveAt1_4 : ∀ t : Fin cfg1.N, cond1_1 (grid1.coords t) → cfg1.idle 4 (grid1.coords t) = false := by decide +kernel

/-! ## The buffers the body is called with -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2048 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev accM : Memref sig .tc .vmem S1024x2048 .f32 := Memref.whole cc1_scratch0
/-- The views through which the accumulator's and the output block's contents are stated. -/
abbrev VAcc : View sig .tc .vmem S1024x2048 .f32 := accM.view
abbrev VOut : View sig .tc .vmem S1024x2048 .f32 := (Memref.whole cc1_stg4_0 : Memref sig .tc .vmem S1024x2048 .f32).view

/-! ## The body, run once per case

Each run is stated with the four input blocks at given contents, and returns, with the proof, the list of stores
(last first) it leaves in the accumulator, and in case C in the output block. -/

set_option maxHeartbeats 4000000 in
/-- Case A, a band's first slice: the accumulator may hold anything; the output block is handed back untouched. -/
noncomputable def runA (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x256 .f32) (x1 : Vec F S1024x256 .f32) (x2 : Vec F S1x256 .f32) (x3 : Vec F S256x2048 .bf16) :
    { LS : List (View.Piece (Elt F) S1024x2048 .f32) //
      ∀ (xi : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__fused_kernel i arg3 harg3 arg4 harg4 arg5 harg5 arg6 harg6 arg7 harg7 arg8 harg8) K } := by
  refine ⟨?_, fun xi E K => ?run⟩
  case run =>
    simp only [cc1__fused_kernel_eq_skeleton]; unfold cc1__fused_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
/-- Case B, a middle slice: the accumulator holds what the point before left; the output block is handed back
    untouched. -/
noncomputable def runB (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x256 .f32) (x1 : Vec F S1024x256 .f32) (x2 : Vec F S1x256 .f32) (x3 : Vec F S256x2048 .bf16) (xs : Vec F S1024x2048 .f32) :
    { LS : List (View.Piece (Elt F) S1024x2048 .f32) //
      ∀ (xi : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__fused_kernel i arg3 harg3 arg4 harg4 arg5 harg5 arg6 harg6 arg7 harg7 arg8 harg8) K } := by
  refine ⟨?_, fun xi E K => ?run⟩
  case run =>
    simp only [cc1__fused_kernel_eq_skeleton]; unfold cc1__fused_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
/-- Case C, a band's last slice: the accumulator holds what the point before left; the output block may hold
    anything and ends with the stores `.1`. -/
noncomputable def runC (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x256 .f32) (x1 : Vec F S1024x256 .f32) (x2 : Vec F S1x256 .f32) (x3 : Vec F S256x2048 .bf16) (xs : Vec F S1024x2048 .f32) :
    Σ' (LO : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1__fused_kernel i arg3 harg3 arg4 harg4 arg5 harg5 arg6 harg6 arg7 harg7 arg8 harg8) K } := by
  refine ⟨?_, ?_, fun E K => ?run⟩
  case run =>
    simp only [cc1__fused_kernel_eq_skeleton]; unfold cc1__fused_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.BitsFused.lean ====
/-
  The fused pass as a pipeline, at any float instance.

  Over the per-case runs of the body this module states what the accumulator and the output block hold after every
  grid point, by recursion on the point: at a band's first slice the accumulator is what case A leaves; afterwards
  what case B or C leaves over the point before's accumulator; the output block is written only at a band's last
  slice.  The region's invariant pins the accumulator to these contents between points (the degree pass's staging
  buffers and the generator register ride along unread), and the body's triple at a generic point is the case's run.
-/
import proofs.«101424_j75093208203291_2_alg».proof.Proof.Gen.Kernel.Launch
import proofs.«101424_j75093208203291_2_alg».proof.Proof.Gen.Kernel.Skeleton
import proofs.«101424_j75093208203291_2_alg».proof.Proof.Gen.Kernel.Points
import proofs.«101424_j75093208203291_2_alg».proof.Proof.BitsFusedRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

section Cases
variable (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (x0 : Vec F S1024x256 .f32) (x1 : Vec F S1024x256 .f32) (x2 : Vec F S1x256 .f32) (x3 : Vec F S256x2048 .bf16)

theorem coverA (hc0 : cond1_0 i) (hc1 : ¬cond1_1 i) (y : S1024x2048.Idx) :
    ∃ pc ∈ (runA (F := F) c i arg3 harg3 arg4 harg4 arg5 harg5 arg6 harg6 arg7 harg7 arg8 harg8 hc0 hc1 x0 x1 x2 x3).1, y ∈ pc.1.set :=
  View.cover_of_tiledL (runA (F := F) c i arg3 harg3 arg4 harg4 arg5 harg5 arg6 harg6 arg7 harg7 arg8 harg8 hc0 hc1 x0 x1 x2 x3).1 S1024x2048.size (by sl_kernel_rfl) y

/-- The accumulator after a first slice. -/
def accA (hc0 : cond1_0 i) (hc1 : ¬cond1_1 i) : Vec F S1024x2048 .f32 :=
  VAcc.read (Elt F) (VAcc.writes (Elt F) VAcc.junk (runA (F := F) c i arg3 harg3 arg4 harg4 arg5 harg5 arg6 harg6 arg7 harg7 arg8 harg8 hc0 hc1 x0 x1 x2 x3).1)

theorem coverB (hc0 : ¬cond1_0 i) (hc1 : ¬cond1_1 i) (xs : Vec F S1024x2048 .f32) (y : S1024x2048.Idx) :
    ∃ pc ∈ (runB (F := F) c i arg3 harg3 arg4 harg4 arg5 harg5 arg6 harg6 arg7 harg7 arg8 harg8 hc0 hc1 x0 x1 x2 x3 xs).1, y ∈ pc.1.set :=
  View.cover_of_tiledL (runB (F := F) c i arg3 harg3 arg4 harg4 arg5 harg5 arg6 harg6 arg7 harg7 arg8 harg8 hc0 hc1 x0 x1 x2 x3 xs).1 S1024x2048.size (by sl_kernel_rfl) y

/-- The accumulator after a middle slice, over what it held before. -/
def accB (hc0 : ¬cond1_0 i) (hc1 : ¬cond1_1 i) (xs : Vec F S1024x2048 .f32) : Vec F S1024x2048 .f32 :=
  VAcc.read (Elt F) (VAcc.writes (Elt F) VAcc.junk (runB (F := F) c i arg3 harg3 arg4 harg4 arg5 harg5 arg6 harg6 arg7 harg7 arg8 harg8 hc0 hc1 x0 x1 x2 x3 xs).1)

theorem coverC (hc0 : ¬cond1_0 i) (hc1 : cond1_1 i) (xs : Vec F S1024x2048 .f32) (y : S1024x2048.Idx) :
    ∃ pc ∈ (runC (F := F) c i arg3 harg3 arg4 harg4 arg5 harg5 arg6 harg6 arg7 harg7 arg8 harg8 hc0 hc1 x0 x1 x2 x3 xs).2.1, y ∈ pc.1.set :=
  View.cover_of_tiledL (runC (F := F) c i arg3 harg3 arg4 harg4 arg5 harg5 arg6 harg6 arg7 harg7 arg8 harg8 hc0 hc1 x0 x1 x2 x3 xs).2.1 S1024x2048.size (by sl_kernel_rfl) y

/-- The accumulator after a last slice, over what it held before. -/
def accC (hc0 : ¬cond1_0 i) (hc1 : cond1_1 i) (xs : Vec F S1024x2048 .f32) : Vec F S1024x2048 .f32 :=
  VAcc.read (Elt F) (VAcc.writes (Elt F) VAcc.junk (runC (F := F) c i arg3 harg3 arg4 harg4 arg5 harg5 arg6 harg6 arg7 harg7 arg8 harg8 hc0 hc1 x0 x1 x2 x3 xs).2.1)

theorem coverOutC (hc0 : ¬cond1_0 i) (hc1 : cond1_1 i) (xs : Vec F S1024x2048 .f32) (y : S1024x2048.Idx) :
    ∃ pc ∈ (runC (F := F) c i arg3 harg3 arg4 harg4 arg5 harg5 arg6 harg6 arg7 harg7 arg8 harg8 hc0 hc1 x0 x1 x2 x3 xs).1, y ∈ pc.1.set :=
  View.cover_of_tiledL (runC (F := F) c i arg3 harg3 arg4 harg4 arg5 harg5 arg6 harg6 arg7 harg7 arg8 harg8 hc0 hc1 x0 x1 x2 x3 xs).1 S1024x2048.size (by sl_kernel_rfl) y

/-- The output block after a last slice. -/
def outC (hc0 : ¬cond1_0 i) (hc1 : cond1_1 i) (xs : Vec F S1024x2048 .f32) : Vec F S1024x2048 .f32 :=
  VOut.read (Elt F) (VOut.writes (Elt F) VOut.junk (runC (F := F) c i arg3 harg3 arg4 harg4 arg5 harg5 arg6 harg6 arg7 harg7 arg8 harg8 hc0 hc1 x0 x1 x2 x3 xs).1)

end Cases

/-- A stand-in for the output block where the window is idle: nothing consults it. -/
def outIdle : Vec F S1024x2048 .f32 := VOut.read (Elt F) VOut.junk

/-! ## The cases at a grid point -/

/-- (output block, accumulator) after point `t` when it is a band's first slice, -/
def ptA (c : Dev nD) (t : Fin cfg1.N) (h0 : t.val % 16 = 0) (h1 : ¬t.val % 16 = 15) : Vec F S1024x2048 .f32 × Vec F S1024x2048 .f32 :=
  (outIdle, accA c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) ((hcond1_0 t).mpr h0) (fun h => h1 ((hcond1_1 t).mp h)))
/-- a middle slice, -/
def ptB (c : Dev nD) (t : Fin cfg1.N) (h0 : ¬t.val % 16 = 0) (h1 : ¬t.val % 16 = 15) (xs : Vec F S1024x2048 .f32) : Vec F S1024x2048 .f32 × Vec F S1024x2048 .f32 :=
  (outIdle, accB c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) (fun h => h1 ((hcond1_1 t).mp h)) xs)
/-- a last slice. -/
def ptC (c : Dev nD) (t : Fin cfg1.N) (h0 : ¬t.val % 16 = 0) (h1 : t.val % 16 = 15) (xs : Vec F S1024x2048 .f32) : Vec F S1024x2048 .f32 × Vec F S1024x2048 .f32 :=
  (outC c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) ((hcond1_1 t).mpr h1) xs,
   accC c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) ((hcond1_1 t).mpr h1) xs)

/-- THE ACCUMULATION: (output block, accumulator) after the body at position `n`. -/
def outsAt1 (c : Dev nD) : (n : ℕ) → n < cfg1.N → Vec F S1024x2048 .f32 × Vec F S1024x2048 .f32
  | 0, hn => ptA V c ⟨0, hn⟩ (Nat.zero_mod _) (by show ¬ (0 : ℕ) % 16 = 15; decide)
  | n + 1, hn =>
    if h0 : (n + 1) % 16 = 0 then
      if h1 : (n + 1) % 16 = 15 then False.elim (by omega)
      else ptA V c ⟨n + 1, hn⟩ h0 h1
    else
      if h1 : (n + 1) % 16 = 15 then ptC V c ⟨n + 1, hn⟩ h0 h1 (outsAt1 c n (Nat.lt_of_succ_lt hn)).2
      else ptB V c ⟨n + 1, hn⟩ h0 h1 (outsAt1 c n (Nat.lt_of_succ_lt hn)).2

theorem outsAt1_A (c : Dev nD) (t : Fin cfg1.N) (h0 : t.val % 16 = 0) (h1 : ¬t.val % 16 = 15) :
    outsAt1 V c t.val t.isLt = ptA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = ptB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = ptC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- A whole scoped buffer at some contents. -/
abbrev anyBuf (c : Dev nD) (b : Ref sig .tc) : sProp 𝕄 :=
  iprop(∃ f : Buf (Elt F) ((c : Thread nD τ).loc b), ((c : Thread nD τ).loc b) ↦{fullShare} f)

/-- The class invariant with the accumulator as a memref owned at some contents. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg1_1 ∗ (∃ d, owns (c : Thread nD τ) accM fullShare d)) ∗ (∃ r, prngReg c r)) := by
  unfold Pipeline.ΦA; rw [scopedRest1_eq]; simp only [accM, owns_whole]; try rfl

/-- Before position `n`: before the first point the class invariant (the accumulator at anything); afterwards the
    accumulator at what the point before left, the degree pass's staging buffers at anything, the generator register
    at some state. -/
def PhiS1 (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg1_1 ∗ owns (c : Thread nD τ) accM fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf (F := F) c cc0_stg0_0 ∗ anyBuf (F := F) c cc0_stg0_1 ∗ anyBuf (F := F) c cc0_stg1_0 ∗ anyBuf (F := F) c cc0_stg1_1 ∗ owns (c : Thread nD τ) accM fullShare ((outsAt1 V c n hn).2)) ∗ (∃ r, prngReg c r)) := rfl

theorem PhiS1_pos (c : Dev nD) (n : ℕ) (h : n ≤ cfg1.N) (hz : n ≠ 0) :
    PhiS1 V c n h = iprop(iprop(anyBuf (F := F) c cc0_stg0_0 ∗ anyBuf (F := F) c cc0_stg0_1 ∗ anyBuf (F := F) c cc0_stg1_0 ∗ anyBuf (F := F) c cc0_stg1_1 ∗ owns (c : Thread nD τ) accM fullShare ((outsAt1 V c (n - 1) (by omega)).2)) ∗ (∃ r, prngReg c r)) := by
  cases n with
  | zero => exact absurd rfl hz
  | succ n => rfl

/-! ## The pipeline's proof data -/

/-- The proof data of the fused pass on core `c`: the arrays as the region finds them; after the body at point `t`
    each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the closed forms say which case the point is in; the
    invariant hands the body the accumulator at what the point before left (at anything at the very first point) and
    takes it back at this point's contents; away from a band's last slice the output block is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2,
        show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold ptA accA; (try dsimp only)
      by_cases hz : t.val = 0
      · rw [PhiS1_castSucc V c t, PhiS1_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (coverA c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (coverA c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 16 = 15
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2,
        show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold ptC outC accC; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runC c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (coverC c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutC c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2,
        show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold ptB accB; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runB c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (coverB c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end Cert.Kernel.Hand

end
-- ==== Proof.BitsRun.lean ====
/-
  The whole program's run, at any float instance.

  The program is: the degree pass; two host operations (the [4096,1] column of inverse degrees re-read as a [1,4096]
  row, and W converted to the narrower float format); the fused pass.  This module follows the contents of every
  buffer outside the kernels' own scratch space through those three steps — a pass replaces its windows' arrays by
  what its write-backs leave and touches nothing else, a host operation writes only its result — and proves that every
  weakly fair execution ends, faulting nowhere, with each such buffer at the last of these contents.  The arguments are
  never written, so they end as launched; the result buffer ends at what the fused pass's write-backs leave.
-/
import proofs.«101424_j75093208203291_2_alg».proof.Proof.Gen.Kernel.Launch
import proofs.«101424_j75093208203291_2_alg».proof.Proof.Gen.Kernel.Skeleton
import proofs.«101424_j75093208203291_2_alg».proof.Proof.Gen.Kernel.Points
import proofs.«101424_j75093208203291_2_alg».proof.Proof.BitsDegree
import proofs.«101424_j75093208203291_2_alg».proof.Proof.BitsFused
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what the degree pass is entered from. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- After the degree pass: its arrays at what the pipeline leaves, every other buffer as before. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VE1 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VE1 m ρ c (Pipeline.arrRef spec0 w) :=
  (W1_arr m ρ c w).symm
theorem hrest0 (c : Dev nD) : ∀ b, b ∉ Finset.univ.image (Pipeline.arrRef spec0) → VE1 m ρ c b = VE0 m ρ c b :=
  fun b hb => W1_of_ne m ρ c b fun w e => hb (Finset.mem_image.mpr ⟨w, Finset.mem_univ _, e⟩)

/-- After the two host operations: what the fused pass is entered from. -/
abbrev W2 : Dev nD → Valuation τ sig (Elt F) := fun c => StableHlo.after hostOps1 (W1 m ρ c)
abbrev VE2 : (c : Dev nD) → (b : Ref sig .tc) → Buf (Elt F) ((c : Thread nD τ).loc b) := fun c b => W2 m ρ c b
/-- After the fused pass. -/
def W3 (c : Dev nD) : Valuation τ sig (Elt F) :=
  Pipeline.withArrays spec1 c (W2 m ρ c) fun w => (dat1 (VE2 m ρ) c).arrAt w cfg1.N
theorem W3_arr (c : Dev nD) (w : Fin cfg1.W) :
    W3 m ρ c (Proc.devRef .tc (Pipeline.arrRef spec1 w)) = (dat1 (VE2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VE3 : (c : Dev nD) → (b : Ref sig .tc) → Buf (Elt F) ((c : Thread nD τ).loc b) := fun c b => W3 m ρ c b
theorem hF1 (c : Dev nD) (w : Fin cfg1.W) : (dat1 (VE2 m ρ) c).arrAt w cfg1.N = VE3 m ρ c (Pipeline.arrRef spec1 w) :=
  (W3_arr m ρ c w).symm
theorem hrest1 (c : Dev nD) : ∀ b, b ∉ Finset.univ.image (Pipeline.arrRef spec1) → VE3 m ρ c b = VE2 m ρ c b :=
  fun b hb => W3_of_ne m ρ c b fun w e => hb (Finset.mem_image.mpr ⟨w, Finset.mem_univ _, e⟩)

/-! ### The arguments end as launched -/

/-- A: an input of both passes, written by no host operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (VE2 m ρ) c).arrAt_in 0 rfl _).trans (A_eq1 (VE2 m ρ) c 0))
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (VE0 m ρ) c).arrAt_in 0 rfl _).trans (A_eq0 (VE0 m ρ) c 0))
    _ = m ((c : Thread nD τ).loc main_arg0) := rfl

/-- h: an input of the fused pass, no array of the degree pass. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (VE2 m ρ) c).arrAt_in 1 rfl _).trans (A_eq1 (VE2 m ρ) c 1))
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-- W: read only by the host conversion; no array of either pass. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- The result buffer ends at what the fused pass's write-backs leave in its output window's array. -/
theorem W3_main_v3 (c : Dev nD) : W3 m ρ c (Proc.devRef .tc main_v3) = (dat1 (VE2 m ρ) c).arrAt 4 cfg1.N :=
  W3_arr m ρ c 4

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE2 m ρ) c
abbrev 𝒱₀ : Variants := Variants.none
abbrev L : GSem nD τ sig → Finset Unit := fun _ => ∅
abbrev lv : GSem nD τ sig → Unit → ℕ := fun _ _ => 0
/-- What rides beside the buffers through every step: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostFresh1 : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W3 m ρ c) ∗ ∃ r, prngReg c r)

/-- The fused pass's class invariant, taken apart as a region's exit wants it: the generator register, no semaphore
    of the kernel's own, the scoped rest. -/
theorem classInv_split1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-! ## The two passes as segments -/

set_option backward.isDefEq.respectTransparency.types false in
/-- The degree pass: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VE1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused pass: entered from `W2`, left at `W3`; its invariant is entered as the class invariant and gives it
    back at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (VE2 m ρ) c).trans (classInv_split1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE2 m ρ c) (VE3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostFresh1 (W1 m ρ)),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every buffer outside the kernels' scratch space ends at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The run with the result buffer named: it ends at what the fused pass's write-backs leave. -/
theorem run_result : θ_run defs (onTc (τ := τ) (main (F := F))) ⟨m, fun _ => 0, ρ⟩ (fun r => ∀ c : Dev nD,
      r.2.mem ((c.tc : Thread nD τ).loc main_v3) = (dat1 (VE2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.IdealDegree.lean ====
/-
  The degree pass as a pipeline, at any float instance.

  The first kernel walks A in eight blocks of 512 rows.  At each grid point it reads the whole 512 × 4096 block,
  sums every row, and stores 1 / (sum + 1) into the 512 × 1 output block; nothing is carried from one point to the
  next.  This module states what the output block holds after the body (the one store read back), proves the body's
  triple by running it, and packages the per-point facts as the pipeline's proof data at the contents `V` the
  region is entered from.
-/
import proofs.«101424_j75093208203291_2_alg».proof.Proof.Gen.KernelIdeal.Launch
import proofs.«101424_j75093208203291_2_alg».proof.Proof.Gen.KernelIdeal.Skeleton
import proofs.«101424_j75093208203291_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds A's block at every point, whatever proof data has `V`'s array and leaves the
    block in place: the block is fetched at every point and the body does not write it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two rectangles: the whole input block and the whole output block -/

abbrev rIn0 : Rect S512x4096 := Rect.unit (s := S512x4096) ![0, 0] S512x4096.size inb_S512x4096_S512x4096_0_0
abbrev rOut0 : Rect S512x1 := Rect.unit (s := S512x1) ![0, 0] S512x1.size inb_S512x1_S512x1_0_0

/-- The output block after the body: its one store, of the inverse degrees of the 512 rows just read. -/
def out0_1 (x0 : Vec F S512x4096 .f32) : Vec F S512x1 .f32 :=
  View.canon [⟨rOut0, k0_pay1 (View.ld x0 rIn0)⟩]

/-- That store covers the output block. -/
theorem cover0_1 (p0 : Vec F S512x1 .f32) (y : S512x1.Idx) :
    ∃ pc ∈ ([⟨rOut0, p0⟩] : List (View.Piece (Elt F) S512x1 .f32)), y ∈ pc.1.set :=
  View.cover_of_tiled [⟨rOut0, p0⟩] S512x1.size (by rfl) y

/-! ## The body's triple -/

set_option maxHeartbeats 1000000 in
/-- On whole staging buffers, the input's at contents `x0` and the output's at anything, the body runs to the end
    leaving the input as it was and the output at `out0_1 x0`. -/
theorem sound_kernel0 (c : Dev nD) (E : Set ℕ) (i : grid0.Coords) (arg1 : Memref sig .tc .vmem S512x4096 .f32) (harg1 : arg1.IsWhole) (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the degree pass on core `c`: the arrays as the region finds them; after the body at point `t`
    the input's buffer at A's block and the output's at the block's inverse degrees; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds A's block, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealFusedRuns.lean ====
/-
  The fused pass's body, case by case, at any float instance.

  The second kernel's grid is 4 × 2 × 16: a 1024-row band of the result, a 2048-column half, and one of sixteen
  256-wide slices of the contraction.  Its body keeps a 1024 × 2048 accumulator in a buffer of its own that lives
  across grid points.  At a band's first slice it stores zeros there; at every slice it adds the slice's partial
  product; at the last slice it copies the accumulator into the output block.  So a point is in one of three cases:
  first slice (A), a middle slice (B), last slice (C).  This module decides the two conditions over the grid, says
  where the output window is idle, and runs the body once per case, recording the stores each case leaves in the
  accumulator and in the output block.
-/
import proofs.«101424_j75093208203291_2_alg».proof.Proof.Gen.KernelIdeal.Launch
import proofs.«101424_j75093208203291_2_alg».proof.Proof.Gen.KernelIdeal.Skeleton
import proofs.«101424_j75093208203291_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, in closed form over the 128 grid points -/

/-- "this is the band's first slice": the body's first conditional. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "this is the band's last slice": the body's second conditional. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a band's last slice the output window is idle: nothing is stored into it and it is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At a band's last slice it is live. -/
theorem liveAt1_4 : ∀ t : Fin cfg1.N, cond1_1 (grid1.coords t) → cfg1.idle 4 (grid1.coords t) = false := by decide +kernel

/-! ## The buffers the body is called with -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x2048 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev accM : Memref sig .tc .vmem S1024x2048 .f32 := Memref.whole cc1_scratch0
/-- The views through which the accumulator's and the output block's contents are stated. -/
abbrev VAcc : View sig .tc .vmem S1024x2048 .f32 := accM.view
abbrev VOut : View sig .tc .vmem S1024x2048 .f32 := (Memref.whole cc1_stg4_0 : Memref sig .tc .vmem S1024x2048 .f32).view

/-! ## The body, run once per case

Each run is stated with the four input blocks at given contents, and returns, with the proof, the list of stores
(last first) it leaves in the accumulator, and in case C in the output block. -/

set_option maxHeartbeats 4000000 in
/-- Case A, a band's first slice: the accumulator may hold anything; the output block is handed back untouched. -/
noncomputable def runA (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (hc0 : cond1_0 i) (hc1 : ¬cond1_1 i)
    (x0 : Vec F S1024x256 .f32) (x1 : Vec F S1024x256 .f32) (x2 : Vec F S1x256 .f32) (x3 : Vec F S256x2048 .bf16) :
    { LS : List (View.Piece (Elt F) S1024x2048 .f32) //
      ∀ (xi : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__fused_kernel i arg3 harg3 arg4 harg4 arg5 harg5 arg6 harg6 arg7 harg7 arg8 harg8) K } := by
  refine ⟨?_, fun xi E K => ?run⟩
  case run =>
    simp only [cc1__fused_kernel_eq_skeleton]; unfold cc1__fused_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
/-- Case B, a middle slice: the accumulator holds what the point before left; the output block is handed back
    untouched. -/
noncomputable def runB (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : ¬cond1_1 i)
    (x0 : Vec F S1024x256 .f32) (x1 : Vec F S1024x256 .f32) (x2 : Vec F S1x256 .f32) (x3 : Vec F S256x2048 .bf16) (xs : Vec F S1024x2048 .f32) :
    { LS : List (View.Piece (Elt F) S1024x2048 .f32) //
      ∀ (xi : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__fused_kernel i arg3 harg3 arg4 harg4 arg5 harg5 arg6 harg6 arg7 harg7 arg8 harg8) K } := by
  refine ⟨?_, fun xi E K => ?run⟩
  case run =>
    simp only [cc1__fused_kernel_eq_skeleton]; unfold cc1__fused_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

set_option maxHeartbeats 4000000 in
/-- Case C, a band's last slice: the accumulator holds what the point before left; the output block may hold
    anything and ends with the stores `.1`. -/
noncomputable def runC (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (hc0 : ¬cond1_0 i) (hc1 : cond1_1 i)
    (x0 : Vec F S1024x256 .f32) (x1 : Vec F S1024x256 .f32) (x2 : Vec F S1x256 .f32) (x3 : Vec F S256x2048 .bf16) (xs : Vec F S1024x2048 .f32) :
    Σ' (LO : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1__fused_kernel i arg3 harg3 arg4 harg4 arg5 harg5 arg6 harg6 arg7 harg7 arg8 harg8) K } := by
  refine ⟨?_, ?_, fun E K => ?run⟩
  case run =>
    simp only [cc1__fused_kernel_eq_skeleton]; unfold cc1__fused_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.IdealFused.lean ====
/-
  The fused pass as a pipeline, at any float instance.

  Over the per-case runs of the body this module states what the accumulator and the output block hold after every
  grid point, by recursion on the point: at a band's first slice the accumulator is what case A leaves; afterwards
  what case B or C leaves over the point before's accumulator; the output block is written only at a band's last
  slice.  The region's invariant pins the accumulator to these contents between points (the degree pass's staging
  buffers and the generator register ride along unread), and the body's triple at a generic point is the case's run.
-/
import proofs.«101424_j75093208203291_2_alg».proof.Proof.Gen.KernelIdeal.Launch
import proofs.«101424_j75093208203291_2_alg».proof.Proof.Gen.KernelIdeal.Skeleton
import proofs.«101424_j75093208203291_2_alg».proof.Proof.Gen.KernelIdeal.Points
import proofs.«101424_j75093208203291_2_alg».proof.Proof.IdealFusedRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

section Cases
variable (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (x0 : Vec F S1024x256 .f32) (x1 : Vec F S1024x256 .f32) (x2 : Vec F S1x256 .f32) (x3 : Vec F S256x2048 .bf16)

theorem coverA (hc0 : cond1_0 i) (hc1 : ¬cond1_1 i) (y : S1024x2048.Idx) :
    ∃ pc ∈ (runA (F := F) c i arg3 harg3 arg4 harg4 arg5 harg5 arg6 harg6 arg7 harg7 arg8 harg8 hc0 hc1 x0 x1 x2 x3).1, y ∈ pc.1.set :=
  View.cover_of_tiledL (runA (F := F) c i arg3 harg3 arg4 harg4 arg5 harg5 arg6 harg6 arg7 harg7 arg8 harg8 hc0 hc1 x0 x1 x2 x3).1 S1024x2048.size (by sl_kernel_rfl) y

/-- The accumulator after a first slice. -/
def accA (hc0 : cond1_0 i) (hc1 : ¬cond1_1 i) : Vec F S1024x2048 .f32 :=
  VAcc.read (Elt F) (VAcc.writes (Elt F) VAcc.junk (runA (F := F) c i arg3 harg3 arg4 harg4 arg5 harg5 arg6 harg6 arg7 harg7 arg8 harg8 hc0 hc1 x0 x1 x2 x3).1)

theorem coverB (hc0 : ¬cond1_0 i) (hc1 : ¬cond1_1 i) (xs : Vec F S1024x2048 .f32) (y : S1024x2048.Idx) :
    ∃ pc ∈ (runB (F := F) c i arg3 harg3 arg4 harg4 arg5 harg5 arg6 harg6 arg7 harg7 arg8 harg8 hc0 hc1 x0 x1 x2 x3 xs).1, y ∈ pc.1.set :=
  View.cover_of_tiledL (runB (F := F) c i arg3 harg3 arg4 harg4 arg5 harg5 arg6 harg6 arg7 harg7 arg8 harg8 hc0 hc1 x0 x1 x2 x3 xs).1 S1024x2048.size (by sl_kernel_rfl) y

/-- The accumulator after a middle slice, over what it held before. -/
def accB (hc0 : ¬cond1_0 i) (hc1 : ¬cond1_1 i) (xs : Vec F S1024x2048 .f32) : Vec F S1024x2048 .f32 :=
  VAcc.read (Elt F) (VAcc.writes (Elt F) VAcc.junk (runB (F := F) c i arg3 harg3 arg4 harg4 arg5 harg5 arg6 harg6 arg7 harg7 arg8 harg8 hc0 hc1 x0 x1 x2 x3 xs).1)

theorem coverC (hc0 : ¬cond1_0 i) (hc1 : cond1_1 i) (xs : Vec F S1024x2048 .f32) (y : S1024x2048.Idx) :
    ∃ pc ∈ (runC (F := F) c i arg3 harg3 arg4 harg4 arg5 harg5 arg6 harg6 arg7 harg7 arg8 harg8 hc0 hc1 x0 x1 x2 x3 xs).2.1, y ∈ pc.1.set :=
  View.cover_of_tiledL (runC (F := F) c i arg3 harg3 arg4 harg4 arg5 harg5 arg6 harg6 arg7 harg7 arg8 harg8 hc0 hc1 x0 x1 x2 x3 xs).2.1 S1024x2048.size (by sl_kernel_rfl) y

/-- The accumulator after a last slice, over what it held before. -/
def accC (hc0 : ¬cond1_0 i) (hc1 : cond1_1 i) (xs : Vec F S1024x2048 .f32) : Vec F S1024x2048 .f32 :=
  VAcc.read (Elt F) (VAcc.writes (Elt F) VAcc.junk (runC (F := F) c i arg3 harg3 arg4 harg4 arg5 harg5 arg6 harg6 arg7 harg7 arg8 harg8 hc0 hc1 x0 x1 x2 x3 xs).2.1)

theorem coverOutC (hc0 : ¬cond1_0 i) (hc1 : cond1_1 i) (xs : Vec F S1024x2048 .f32) (y : S1024x2048.Idx) :
    ∃ pc ∈ (runC (F := F) c i arg3 harg3 arg4 harg4 arg5 harg5 arg6 harg6 arg7 harg7 arg8 harg8 hc0 hc1 x0 x1 x2 x3 xs).1, y ∈ pc.1.set :=
  View.cover_of_tiledL (runC (F := F) c i arg3 harg3 arg4 harg4 arg5 harg5 arg6 harg6 arg7 harg7 arg8 harg8 hc0 hc1 x0 x1 x2 x3 xs).1 S1024x2048.size (by sl_kernel_rfl) y

/-- The output block after a last slice. -/
def outC (hc0 : ¬cond1_0 i) (hc1 : cond1_1 i) (xs : Vec F S1024x2048 .f32) : Vec F S1024x2048 .f32 :=
  VOut.read (Elt F) (VOut.writes (Elt F) VOut.junk (runC (F := F) c i arg3 harg3 arg4 harg4 arg5 harg5 arg6 harg6 arg7 harg7 arg8 harg8 hc0 hc1 x0 x1 x2 x3 xs).1)

end Cases

/-- A stand-in for the output block where the window is idle: nothing consults it. -/
def outIdle : Vec F S1024x2048 .f32 := VOut.read (Elt F) VOut.junk

/-! ## The cases at a grid point -/

/-- (output block, accumulator) after point `t` when it is a band's first slice, -/
def ptA (c : Dev nD) (t : Fin cfg1.N) (h0 : t.val % 16 = 0) (h1 : ¬t.val % 16 = 15) : Vec F S1024x2048 .f32 × Vec F S1024x2048 .f32 :=
  (outIdle, accA c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) ((hcond1_0 t).mpr h0) (fun h => h1 ((hcond1_1 t).mp h)))
/-- a middle slice, -/
def ptB (c : Dev nD) (t : Fin cfg1.N) (h0 : ¬t.val % 16 = 0) (h1 : ¬t.val % 16 = 15) (xs : Vec F S1024x2048 .f32) : Vec F S1024x2048 .f32 × Vec F S1024x2048 .f32 :=
  (outIdle, accB c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) (fun h => h1 ((hcond1_1 t).mp h)) xs)
/-- a last slice. -/
def ptC (c : Dev nD) (t : Fin cfg1.N) (h0 : ¬t.val % 16 = 0) (h1 : t.val % 16 = 15) (xs : Vec F S1024x2048 .f32) : Vec F S1024x2048 .f32 × Vec F S1024x2048 .f32 :=
  (outC c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) ((hcond1_1 t).mpr h1) xs,
   accC c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) ((hcond1_1 t).mpr h1) xs)

/-- THE ACCUMULATION: (output block, accumulator) after the body at position `n`. -/
def outsAt1 (c : Dev nD) : (n : ℕ) → n < cfg1.N → Vec F S1024x2048 .f32 × Vec F S1024x2048 .f32
  | 0, hn => ptA V c ⟨0, hn⟩ (Nat.zero_mod _) (by show ¬ (0 : ℕ) % 16 = 15; decide)
  | n + 1, hn =>
    if h0 : (n + 1) % 16 = 0 then
      if h1 : (n + 1) % 16 = 15 then False.elim (by omega)
      else ptA V c ⟨n + 1, hn⟩ h0 h1
    else
      if h1 : (n + 1) % 16 = 15 then ptC V c ⟨n + 1, hn⟩ h0 h1 (outsAt1 c n (Nat.lt_of_succ_lt hn)).2
      else ptB V c ⟨n + 1, hn⟩ h0 h1 (outsAt1 c n (Nat.lt_of_succ_lt hn)).2

theorem outsAt1_A (c : Dev nD) (t : Fin cfg1.N) (h0 : t.val % 16 = 0) (h1 : ¬t.val % 16 = 15) :
    outsAt1 V c t.val t.isLt = ptA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = ptB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = ptC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- A whole scoped buffer at some contents. -/
abbrev anyBuf (c : Dev nD) (b : Ref sig .tc) : sProp 𝕄 :=
  iprop(∃ f : Buf (Elt F) ((c : Thread nD τ).loc b), ((c : Thread nD τ).loc b) ↦{fullShare} f)

/-- The class invariant with the accumulator as a memref owned at some contents. -/
theorem PhiA1_eq (c : Dev nD) :
    (Pipeline.ΦA spec1 c : sProp 𝕄)
      = iprop(iprop(anyBuf (F := F) c cc0_stg0_0 ∗ anyBuf (F := F) c cc0_stg0_1 ∗ anyBuf (F := F) c cc0_stg1_0 ∗ anyBuf (F := F) c cc0_stg1_1 ∗ (∃ d, owns (c : Thread nD τ) accM fullShare d)) ∗ (∃ r, prngReg c r)) := by
  unfold Pipeline.ΦA; rw [scopedRest1_eq]; simp only [accM, owns_whole]; try rfl

/-- Before position `n`: before the first point the class invariant (the accumulator at anything); afterwards the
    accumulator at what the point before left, the degree pass's staging buffers at anything, the generator register
    at some state. -/
def PhiS1 (c : Dev nD) : (n : ℕ) → n ≤ cfg1.N → sProp 𝕄
  | 0, _ => Pipeline.ΦA spec1 c
  | n + 1, hn => iprop(iprop(anyBuf (F := F) c cc0_stg0_0 ∗ anyBuf (F := F) c cc0_stg0_1 ∗ anyBuf (F := F) c cc0_stg1_0 ∗ anyBuf (F := F) c cc0_stg1_1 ∗ owns (c : Thread nD τ) accM fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(anyBuf (F := F) c cc0_stg0_0 ∗ anyBuf (F := F) c cc0_stg0_1 ∗ anyBuf (F := F) c cc0_stg1_0 ∗ anyBuf (F := F) c cc0_stg1_1 ∗ owns (c : Thread nD τ) accM fullShare ((outsAt1 V c n hn).2)) ∗ (∃ r, prngReg c r)) := rfl

theorem PhiS1_pos (c : Dev nD) (n : ℕ) (h : n ≤ cfg1.N) (hz : n ≠ 0) :
    PhiS1 V c n h = iprop(iprop(anyBuf (F := F) c cc0_stg0_0 ∗ anyBuf (F := F) c cc0_stg0_1 ∗ anyBuf (F := F) c cc0_stg1_0 ∗ anyBuf (F := F) c cc0_stg1_1 ∗ owns (c : Thread nD τ) accM fullShare ((outsAt1 V c (n - 1) (by omega)).2)) ∗ (∃ r, prngReg c r)) := by
  cases n with
  | zero => exact absurd rfl hz
  | succ n => rfl

/-! ## The pipeline's proof data -/

/-- The proof data of the fused pass on core `c`: the arrays as the region finds them; after the body at point `t`
    each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their blocks; the closed forms say which case the point is in; the
    invariant hands the body the accumulator at what the point before left (at anything at the very first point) and
    takes it back at this point's contents; away from a band's last slice the output block is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2,
        show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold ptA accA; (try dsimp only)
      by_cases hz : t.val = 0
      · rw [PhiS1_castSucc V c t, PhiS1_zero V c _ _ hz, PhiA1_eq]
        iintro ⟨⟨⟨Ha, Hb, Hc, Hd, HS0⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (coverA c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨Ha, Hb, Hc, Hd, HS0⟩, Hg⟩, Ho, ⟨%d0, H0⟩, ⟨%d1, H1⟩, ⟨%d2, H2⟩, ⟨%d3, H3⟩, ⟨%d4, H4⟩⟩
        iapply ((runA c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (coverA c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 16 = 15
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2,
        show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold ptC outC accC; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runC c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (coverC c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOutC c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0,
        show (dat1 V c).leavesExact 1 t = owns (c : Thread nD τ) (ms1_1 t) fullShare ((dat1 V c).after 1 t) from by
        unfold Dat.leavesExact; rw [liveAt1_1 t], after1_1,
        show (dat1 V c).leavesExact 2 t = owns (c : Thread nD τ) (ms1_2 t) fullShare ((dat1 V c).after 2 t) from by
        unfold Dat.leavesExact; rw [liveAt1_2 t], after1_2,
        show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold ptB accB; (try dsimp only)
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runB c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (coverB c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

end Cert.KernelIdeal.Hand

end
-- ==== Proof.IdealRun.lean ====
/-
  The whole program's run, at any float instance.

  The program is: the degree pass; two host operations (the [4096,1] column of inverse degrees re-read as a [1,4096]
  row, and W converted to the narrower float format); the fused pass.  This module follows the contents of every
  buffer outside the kernels' own scratch space through those three steps — a pass replaces its windows' arrays by
  what its write-backs leave and touches nothing else, a host operation writes only its result — and proves that every
  weakly fair execution ends, faulting nowhere, with each such buffer at the last of these contents.  The arguments are
  never written, so they end as launched; the result buffer ends at what the fused pass's write-backs leave.
-/
import proofs.«101424_j75093208203291_2_alg».proof.Proof.Gen.KernelIdeal.Launch
import proofs.«101424_j75093208203291_2_alg».proof.Proof.Gen.KernelIdeal.Skeleton
import proofs.«101424_j75093208203291_2_alg».proof.Proof.Gen.KernelIdeal.Points
import proofs.«101424_j75093208203291_2_alg».proof.Proof.IdealDegree
import proofs.«101424_j75093208203291_2_alg».proof.Proof.IdealFused
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what the degree pass is entered from. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- After the degree pass: its arrays at what the pipeline leaves, every other buffer as before. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VE1 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VE1 m ρ c (Pipeline.arrRef spec0 w) :=
  (W1_arr m ρ c w).symm
theorem hrest0 (c : Dev nD) : ∀ b, b ∉ Finset.univ.image (Pipeline.arrRef spec0) → VE1 m ρ c b = VE0 m ρ c b :=
  fun b hb => W1_of_ne m ρ c b fun w e => hb (Finset.mem_image.mpr ⟨w, Finset.mem_univ _, e⟩)

/-- After the two host operations: what the fused pass is entered from. -/
abbrev W2 : Dev nD → Valuation τ sig (Elt F) := fun c => StableHlo.after hostOps1 (W1 m ρ c)
abbrev VE2 : (c : Dev nD) → (b : Ref sig .tc) → Buf (Elt F) ((c : Thread nD τ).loc b) := fun c b => W2 m ρ c b
/-- After the fused pass. -/
def W3 (c : Dev nD) : Valuation τ sig (Elt F) :=
  Pipeline.withArrays spec1 c (W2 m ρ c) fun w => (dat1 (VE2 m ρ) c).arrAt w cfg1.N
theorem W3_arr (c : Dev nD) (w : Fin cfg1.W) :
    W3 m ρ c (Proc.devRef .tc (Pipeline.arrRef spec1 w)) = (dat1 (VE2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VE3 : (c : Dev nD) → (b : Ref sig .tc) → Buf (Elt F) ((c : Thread nD τ).loc b) := fun c b => W3 m ρ c b
theorem hF1 (c : Dev nD) (w : Fin cfg1.W) : (dat1 (VE2 m ρ) c).arrAt w cfg1.N = VE3 m ρ c (Pipeline.arrRef spec1 w) :=
  (W3_arr m ρ c w).symm
theorem hrest1 (c : Dev nD) : ∀ b, b ∉ Finset.univ.image (Pipeline.arrRef spec1) → VE3 m ρ c b = VE2 m ρ c b :=
  fun b hb => W3_of_ne m ρ c b fun w e => hb (Finset.mem_image.mpr ⟨w, Finset.mem_univ _, e⟩)

/-! ### The arguments end as launched -/

/-- A: an input of both passes, written by no host operation. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (VE2 m ρ) c).arrAt_in 0 rfl _).trans (A_eq1 (VE2 m ρ) c 0))
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (VE0 m ρ) c).arrAt_in 0 rfl _).trans (A_eq0 (VE0 m ρ) c 0))
    _ = m ((c : Thread nD τ).loc main_arg0) := rfl

/-- h: an input of the fused pass, no array of the degree pass. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 1).trans (((dat1 (VE2 m ρ) c).arrAt_in 1 rfl _).trans (A_eq1 (VE2 m ρ) c 1))
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-- W: read only by the host conversion; no array of either pass. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- The result buffer ends at what the fused pass's write-backs leave in its output window's array. -/
theorem W3_main_v3 (c : Dev nD) : W3 m ρ c (Proc.devRef .tc main_v3) = (dat1 (VE2 m ρ) c).arrAt 4 cfg1.N :=
  W3_arr m ρ c 4

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE2 m ρ) c
abbrev 𝒱₀ : Variants := Variants.none
abbrev L : GSem nD τ sig → Finset Unit := fun _ => ∅
abbrev lv : GSem nD τ sig → Unit → ℕ := fun _ _ => 0
/-- What rides beside the buffers through every step: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostFresh1 : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (W3 m ρ c) ∗ ∃ r, prngReg c r)

/-- The fused pass's class invariant, taken apart as a region's exit wants it: the generator register, no semaphore
    of the kernel's own, the scoped rest. -/
theorem classInv_split1 (c : Dev nD) :
    (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

/-! ## The two passes as segments -/

set_option backward.isDefEq.respectTransparency.types false in
/-- The degree pass: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VE1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused pass: entered from `W2`, left at `W3`; its invariant is entered as the class invariant and gives it
    back at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VE2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (VE2 m ρ) c).trans (classInv_split1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE2 m ρ c) (VE3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostFresh1 (W1 m ρ)),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every buffer outside the kernels' scratch space ends at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The run with the result buffer named: it ends at what the fused pass's write-backs leave. -/
theorem run_result : θ_run defs (onTc (τ := τ) (main (F := F))) ⟨m, fun _ => 0, ρ⟩ (fun r => ∀ c : Dev nD,
      r.2.mem ((c.tc : Thread nD τ).loc main_v3) = (dat1 (VE2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.IdealFusedPieces.lean ====
/-
  What each case of the fused pass leaves, as the body's arithmetic.

  A grid point of the fused pass is a band's first slice, a middle slice or its last slice.  In each case the body
  stores into the accumulator the sum of what the accumulator held (the zero block at a first slice) and the slice's
  partial product of the mixed block with the W block; at a last slice it also copies that into the output block.
  Here the stores the body's runs recorded are read back as that one pure term of the point's four input blocks and
  of the accumulator's contents before the point.
-/
import proofs.«101424_j75093208203291_2_alg».proof.Proof.Gen.KernelIdeal.Launch
import proofs.«101424_j75093208203291_2_alg».proof.Proof.Gen.KernelIdeal.Skeleton
import proofs.«101424_j75093208203291_2_alg».proof.Proof.Gen.KernelIdeal.Points
import proofs.«101424_j75093208203291_2_alg».proof.Proof.IdealFusedRuns
import proofs.«101424_j75093208203291_2_alg».proof.Proof.IdealFused
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hzPieces : (![0, 0] : Fin 2 → Nat) = fun _ => 0 := funext fun a => by fin_cases a <;> rfl

/-- A middle slice: the accumulator becomes what it held plus the slice's partial product. -/
theorem accB_eq (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (x0 : Vec F S1024x256 .f32) (x1 : Vec F S1024x256 .f32) (x2 : Vec F S1x256 .f32) (x3 : Vec F S256x2048 .bf16) (hc0 : ¬cond1_0 i) (hc1 : ¬cond1_1 i) (xs : Vec F S1024x2048 .f32) :
    accB c i arg3 harg3 arg4 harg4 arg5 harg5 arg6 harg6 arg7 harg7 arg8 harg8 x0 x1 x2 x3 hc0 hc1 xs = k1_pay1 (k1_pay3 i x0 x2 x1 xs x3) := by
  unfold accB
  rw [View.read_writes_eq_canon _ _ _ (coverB c i arg3 harg3 arg4 harg4 arg5 harg5 arg6 harg6 arg7 harg7 arg8 harg8 x0 x1 x2 x3 hc0 hc1 xs)]
  unfold runB
  dsimp only
  try sl_unfold_words
  rw [View.canon_unit_zero hzPieces]
  simp only [View.readAt_eq_ld, harg3.read_unread, harg4.read_unread, harg5.read_unread, harg6.read_unread, harg8.read_unread,
    View.ld_unit_zero (S := S1024x256) hzPieces, View.ld_unit_zero (S := S1x256) hzPieces, View.ld_unit_zero (S := S256x2048) hzPieces,
    View.ld_unit_zero (S := S1024x2048) hzPieces]

/-- A band's first slice: the accumulator is cleared, read back as the zero block, and becomes the zero block plus the
    slice's partial product. -/
theorem accA_eq (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (x0 : Vec F S1024x256 .f32) (x1 : Vec F S1024x256 .f32) (x2 : Vec F S1x256 .f32) (x3 : Vec F S256x2048 .bf16) (hc0 : cond1_0 i) (hc1 : ¬cond1_1 i) :
    accA c i arg3 harg3 arg4 harg4 arg5 harg5 arg6 harg6 arg7 harg7 arg8 harg8 x0 x1 x2 x3 hc0 hc1 = k1_pay1 (k1_pay3 i x0 x2 x1 (k1_pay2 (F := F)) x3) := by
  unfold accA
  rw [View.read_writes_eq_canon _ _ _ (coverA c i arg3 harg3 arg4 harg4 arg5 harg5 arg6 harg6 arg7 harg7 arg8 harg8 x0 x1 x2 x3 hc0 hc1)]
  unfold runA
  dsimp only
  try sl_unfold_words
  rw [View.canon_cons_unit_zero hzPieces, View.readCov_unit_zero (S := S1024x2048) _ hzPieces]
  simp only [View.readAt_eq_ld, harg3.read_unread, harg4.read_unread, harg5.read_unread, harg6.read_unread, harg8.read_unread,
    View.ld_unit_zero (S := S1024x256) hzPieces, View.ld_unit_zero (S := S1x256) hzPieces, View.ld_unit_zero (S := S256x2048) hzPieces,
    View.ld_unit_zero (S := S1024x2048) hzPieces]

/-- A band's last slice leaves in the accumulator what a middle slice would: what it held plus the slice's partial
    product. -/
theorem accC_eq (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (x0 : Vec F S1024x256 .f32) (x1 : Vec F S1024x256 .f32) (x2 : Vec F S1x256 .f32) (x3 : Vec F S256x2048 .bf16) (hc0 : ¬cond1_0 i) (hc1 : cond1_1 i) (xs : Vec F S1024x2048 .f32) :
    accC c i arg3 harg3 arg4 harg4 arg5 harg5 arg6 harg6 arg7 harg7 arg8 harg8 x0 x1 x2 x3 hc0 hc1 xs = k1_pay1 (k1_pay3 i x0 x2 x1 xs x3) := by
  unfold accC
  rw [View.read_writes_eq_canon _ _ _ (coverC c i arg3 harg3 arg4 harg4 arg5 harg5 arg6 harg6 arg7 harg7 arg8 harg8 x0 x1 x2 x3 hc0 hc1 xs)]
  unfold runC
  dsimp only
  try sl_unfold_words
  dsimp only
  rw [View.canon_unit_zero hzPieces]
  simp only [View.readAt_eq_ld, harg3.read_unread, harg4.read_unread, harg5.read_unread, harg6.read_unread, harg8.read_unread,
    View.ld_unit_zero (S := S1024x256) hzPieces, View.ld_unit_zero (S := S1x256) hzPieces, View.ld_unit_zero (S := S256x2048) hzPieces,
    View.ld_unit_zero (S := S1024x2048) hzPieces]

/-- At a band's last slice the output block receives the accumulator as just stored. -/
theorem outC_eq (c : Dev nD) (i : grid1.Coords) (arg3 : Memref sig .tc .vmem S1024x256 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1024x2048 .f32) (harg7 : arg7.IsWhole) (arg8 : Memref sig .tc .vmem S1024x2048 .f32) (harg8 : arg8.IsWhole) (x0 : Vec F S1024x256 .f32) (x1 : Vec F S1024x256 .f32) (x2 : Vec F S1x256 .f32) (x3 : Vec F S256x2048 .bf16) (hc0 : ¬cond1_0 i) (hc1 : cond1_1 i) (xs : Vec F S1024x2048 .f32) :
    outC c i arg3 harg3 arg4 harg4 arg5 harg5 arg6 harg6 arg7 harg7 arg8 harg8 x0 x1 x2 x3 hc0 hc1 xs = k1_pay1 (k1_pay3 i x0 x2 x1 xs x3) := by
  unfold outC
  rw [View.read_writes_eq_canon _ _ _ (coverOutC c i arg3 harg3 arg4 harg4 arg5 harg5 arg6 harg6 arg7 harg7 arg8 harg8 x0 x1 x2 x3 hc0 hc1 xs)]
  unfold runC
  dsimp only
  try sl_unfold_words
  dsimp only
  rw [View.canon_unit_zero hzPieces, View.readCov_unit_zero (S := S1024x2048) _ hzPieces]
  simp only [View.readAt_eq_ld, harg3.read_unread, harg4.read_unread, harg5.read_unread, harg6.read_unread, harg8.read_unread,
    View.ld_unit_zero (S := S1024x256) hzPieces, View.ld_unit_zero (S := S1x256) hzPieces, View.ld_unit_zero (S := S256x2048) hzPieces,
    View.ld_unit_zero (S := S1024x2048) hzPieces]

end Cert.KernelIdeal.Hand

end
-- ==== Proof.Spec.lean ====
/-
  The function both programs compute, index by index, on the extended reals.

  Write A, h, W for the three 4096 × 4096 argument arrays.  The degree of row r is the sum of A's row r; its
  inverse degree is 1 / (degree + 1).  The normalised adjacency adds the identity to A and scales COLUMN k by the
  inverse degree of k; the mixed array is  ½ · h + ½ · ((A + I) · diag(invDeg));  the result is its matrix product
  with W:   G(r, c) = ∑ₖ (½ · h(r,k) + ½ · ((A(r,k) + [r = k]) · invDeg(k))) · W(k, c).

  The three float words that occur (1, ½ and 0) are kept as their words; only 1 and 0 are ever evaluated, where the
  reference makes the identity matrix by converting a comparison bit to a float.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- The shape of the three arguments and of the result. -/
abbrev SN : Shape := ⟨2, ![4096, 4096]⟩

/-- The word of 1.0, of 0.5 and of 0.0 at the ideal instance. -/
abbrev one : EReal := Ideal.ofBits .f32 0x3F800000#32
abbrev half : EReal := Ideal.ofBits .f32 0x3F000000#32
abbrev zero : EReal := Ideal.ofBits .f32 0x00000000#32

/-- The word of 1.0 is the real number 1. -/
theorem one_eq : one = 1 := by
  simp [one, Ideal.ofBits, Ideal.ieee, -EReal.coe_mul]; norm_num

/-- The word of 0.0 is the real number 0. -/
theorem zero_eq : zero = 0 := Ideal.ofBits_zero_f32

/-- The identity matrix's entry at global row `a`, global column `b`. -/
def dg (a b : Nat) : EReal := if a = b then one else zero

/-- The inverse degree of row `r`: one over (the sum of A's row r, plus one). -/
def invDeg (A : SN.Idx → EReal) (r : Fin 4096) : EReal :=
  Ideal.div one ((∑ k : Fin 4096, A (ix2 r k)) + one)

/-- One entry of the mixed array from its four ingredients: the adjacency entry, the feature entry, the identity's
    entry and the column's inverse degree. -/
def mix (a hh d inv : EReal) : EReal := half * hh + half * ((a + d) * inv)

/-- The mixed array at (r, k). -/
def temp (A h : SN.Idx → EReal) (r k : Fin 4096) : EReal :=
  mix (A (ix2 r k)) (h (ix2 r k)) (dg r.val k.val) (invDeg A k)

/-- The result at row `r`, column `c`. -/
def Gat (A h W : SN.Idx → EReal) (r c : Fin 4096) : EReal := ∑ k : Fin 4096, temp A h r k * W (ix2 k c)

/-- The result array. -/
def G (A h W : SN.Idx → EReal) : SN.Idx → EReal := fun j => Gat A h W (j 0) (j 1)

/-! ## The contraction taken 256 columns at a time

The kernel walks the 4096 contraction indices in 16 blocks of 256, adding each block's partial product to an
accumulator that starts at the zero word. -/

/-- Block `b`'s share of a sum over the contraction index: the 256 terms at 256·b, …, 256·b + 255. -/
def blk (f : ℕ → EReal) (b : ℕ) : EReal := ∑ k : Fin 256, f (256 * b + k.val)

/-- The accumulator after block `n`: the zero word plus block 0, then one block more each step. -/
def accum (f : ℕ → EReal) : ℕ → EReal
  | 0 => zero + blk f 0
  | n + 1 => accum f n + blk f (n + 1)

end Cert.GraphConv

end
-- ==== Proof.Payloads.lean ====
/-
  The kernel's two bodies read index by index, on the extended reals.

  The first body sums each row of its 512 × 4096 block of A and returns 1 / (sum + 1) as a 512 × 1 column.  The second
  body forms, for its 1024 × 256 block, the mixed entries  ½ · h + ½ · ((A + I) · invDeg)  — the identity's entry made
  by comparing the global row number with the global column number, the inverse degrees one row broadcast over all
  rows — and adds their product with a 256 × 2048 block of W to the accumulator it loaded.  Each lemma here states one
  stored value at an index written by its coordinates.
-/
import proofs.«101424_j75093208203291_2_alg».proof.Proof.Gen.KernelIdeal.Skeleton
import proofs.«101424_j75093208203291_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv.Pay

open Cert.KernelIdeal Cert.KernelIdeal.Gen Cert.GraphConv Idealize.ShloMosaic Idealize.ShloMosaic.ValueIdx

/-! ## Two layout facts and the lane sum -/

/-- A length-a vector viewed as an a × 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a 512 × 4096 block, at row r, is the sum of that row's 4096 entries. -/
theorem rowSum_apply (v0 : FVec Ideal S512x4096 .f32) (h : S512x4096.Reduces [1] S512) (hφ : FKind.Formats .f32)
    (hacc : (0x00000000#32 : BitVec 32) = 0x00000000#32) (r : Fin 512) :
    multiReduction .add [1] S512 v0 0x00000000#32 h hφ hacc (ix1 r) = ∑ k : Fin 4096, v0 (ix2 r k) :=
  (Ideal.multiReduction_add_single v0 0x00000000#32 h hφ hacc (ix1 r)).trans
    (Finset.sum_congr rfl fun k _ => congrArg v0 (funext fun a => Fin.ext (by
      match a with
      | ⟨0, _⟩ => rfl
      | ⟨1, _⟩ => rfl)))

/-! ## The degree body -/

/-- The degree body's stored column at row r: one over (the row's sum plus one). -/
theorem degree_apply (v0 : Vec Ideal S512x4096 .f32) (r : Fin 512) :
    k0_pay1 (F := Ideal) v0 (ix2 r (0 : Fin 1)) = Ideal.div one ((∑ k : Fin 4096, v0 (ix2 r k)) + one) := by
  unfold k0_pay1
  rw [divf_apply, addf_apply, shapeCast_a_a1_apply, rowSum_apply]
  rfl

/-! ## The fused body's two plain stores -/

/-- The carried accumulator is stored as it is. -/
theorem acc_store_eq (v33 : FVec Ideal S1024x2048 .f32) : k1_pay1 (F := Ideal) v33 = v33 := by
  unfold k1_pay1
  exact shapeCast_self _ _

/-- The first contraction step clears the accumulator: every entry is the zero word. -/
theorem zero_store_apply (j : S1024x2048.Idx) : k1_pay2 (F := Ideal) j = zero := by
  unfold k1_pay2
  rw [shapeCast_self]
  rfl

/-! ## The fused body: the identity's entry -/

/-- Two naturals below 2 ^ 32 have the same 32-bit word exactly when they are equal. -/
theorem ofNat_eq_iff (x y : ℕ) (hx : x < 2 ^ 32) (hy : y < 2 ^ 32) :
    BitVec.ofNat 32 x = BitVec.ofNat 32 y ↔ x = y := by
  constructor
  · intro h
    have h' := congrArg BitVec.toNat h
    rw [BitVec.toNat_ofNat, BitVec.toNat_ofNat, Nat.mod_eq_of_lt hx, Nat.mod_eq_of_lt hy] at h'
    exact h'
  · intro h; rw [h]

/-- The comparison bit of two words is 1 exactly when the words are equal. -/
theorem cmpi_eq_bit (x y : BitVec 32) : IntOp.cmpi .eq x y = if x = y then 1#1 else 0#1 := by
  show BitVec.ofBool (x == y) = _
  by_cases h : x = y
  · rw [if_pos h, beq_iff_eq.mpr h]; rfl
  · rw [if_neg h, beq_false_of_ne h]; rfl

/-- The identity's entry as the kernel makes it: block row a of 4, row r of 1024 inside it, block column b of 16, column k
    of 256 inside it. The global row number a · 1024 + r and the global column number b · 256 + k are both below 4096, so
    their 32-bit words are equal exactly when the numbers are, and the select between the words of 1 and 0 is the
    identity matrix's entry there. -/
theorem diag_word (a b r k : ℕ) (ha : a < 4) (hb : b < 16) (hr : r < 1024) (hk : k < 256) :
    Scalar.select (IntOp.cmpi .eq (IntOp.addi (Scalar.muli (BitVec.ofNat 32 a) 1024#32) (BitVec.ofNat 32 r))
        (IntOp.addi (Scalar.muli (BitVec.ofNat 32 b) 256#32) (BitVec.ofNat 32 k))) one zero
      = dg (a * 1024 + r) (b * 256 + k) := by
  have e1 : IntOp.addi (Scalar.muli (BitVec.ofNat 32 a) 1024#32) (BitVec.ofNat 32 r) = BitVec.ofNat 32 (a * 1024 + r) := by
    show BitVec.ofNat 32 a * BitVec.ofNat 32 1024 + BitVec.ofNat 32 r = _
    rw [← BitVec.ofNat_mul, ← BitVec.ofNat_add]
  have e2 : IntOp.addi (Scalar.muli (BitVec.ofNat 32 b) 256#32) (BitVec.ofNat 32 k) = BitVec.ofNat 32 (b * 256 + k) := by
    show BitVec.ofNat 32 b * BitVec.ofNat 32 256 + BitVec.ofNat 32 k = _
    rw [← BitVec.ofNat_mul, ← BitVec.ofNat_add]
  rw [e1, e2, cmpi_eq_bit]
  unfold dg
  by_cases h : a * 1024 + r = b * 256 + k
  · rw [if_pos h, if_pos (by rw [h]), select_one]
  · rw [if_neg h, if_neg (fun e => h ((ofNat_eq_iff _ _ (by omega) (by omega)).1 e)), select_zero]

/-! ## The fused body: the block product -/

/-- The left factor's row is the result's row … -/
theorem lhs_row (j : S1024x2048.Idx) (q : dot_S1024x256_S256x2048_S1024x2048_1_0_0_1_n_n.contr.Idx) : (dot_S1024x256_S256x2048_S1024x2048_1_0_0_1_n_n.lhsIdx j q 0).val = (j 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl
/-- … its column the contraction position … -/
theorem lhs_col (j : S1024x2048.Idx) (q : dot_S1024x256_S256x2048_S1024x2048_1_0_0_1_n_n.contr.Idx) : (dot_S1024x256_S256x2048_S1024x2048_1_0_0_1_n_n.lhsIdx j q 1).val = (q ⟨0, by decide⟩).val :=
  dot_S1024x256_S256x2048_S1024x2048_1_0_0_1_n_n.lhsIdx_val_of_single rfl j q
/-- … the right factor's row the contraction position … -/
theorem rhs_row (j : S1024x2048.Idx) (q : dot_S1024x256_S256x2048_S1024x2048_1_0_0_1_n_n.contr.Idx) : (dot_S1024x256_S256x2048_S1024x2048_1_0_0_1_n_n.rhsIdx j q 0).val = (q ⟨0, by decide⟩).val :=
  dot_S1024x256_S256x2048_S1024x2048_1_0_0_1_n_n.rhsIdx_val_of_single rfl j q
/-- … and its column the result's column. -/
theorem rhs_col (j : S1024x2048.Idx) (q : dot_S1024x256_S256x2048_S1024x2048_1_0_0_1_n_n.contr.Idx) : (dot_S1024x256_S256x2048_S1024x2048_1_0_0_1_n_n.rhsIdx j q 1).val = (j 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- The 1024 × 256 by 256 × 2048 product into the zero accumulator, at (r, c): the sum over the 256 contraction
    positions of the left factor at (r, k) times the right factor at (k, c). -/
theorem blockProduct_apply (L : FVec Ideal S1024x256 .bf16) (R : FVec Ideal S256x2048 .bf16) (r : Fin 1024) (c : Fin 2048) :
    matmul dot_S1024x256_S256x2048_S1024x2048_1_0_0_1_n_n none L R (constant (F := Ideal) S1024x2048 .f32 0x00000000#32) (ix2 r c)
      = ∑ k : Fin 256, L (ix2 r k) * R (ix2 k c) := by
  simp only [matmul]
  rw [Ideal.matmul_constant_zero_apply, ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 r c) ((contrEquiv1 dot_S1024x256_S256x2048_S1024x2048_1_0_0_1_n_n 256 rfl rfl).symm k) = ix2 r k :=
    funext fun a => Fin.ext (by
      match a with
      | ⟨0, _⟩ => exact lhs_row _ _
      | ⟨1, _⟩ => exact (lhs_col _ _).trans hk)
  have er : dot_S1024x256_S256x2048_S1024x2048_1_0_0_1_n_n.rhsIdx (ix2 r c) ((contrEquiv1 dot_S1024x256_S256x2048_S1024x2048_1_0_0_1_n_n 256 rfl rfl).symm k) = ix2 k c :=
    funext fun a => Fin.ext (by
      match a with
      | ⟨0, _⟩ => exact (rhs_row _ _).trans hk
      | ⟨1, _⟩ => exact rhs_col _ _)
  rw [el, er]

/-! ## The fused body: the accumulated block -/

/-- The identity's block at (r, k): the select between the splats of the words of 1 and 0 on the comparison of the
    global row number, block row · 1024 + r, with the global column number, block column · 256 + k. -/
theorem diag_apply (i : grid1.Coords) (r : Fin 1024) (k : Fin 256) :
    select (cmpi .eq
        (addi (broadcast S1024x256 (Scalar.muli (BitVec.ofNat 32 (i 0).val) 1024#32)) (iota .tc S1024x256 32 [0] iota_S1024x256_d0_w32))
        (addi (broadcast S1024x256 (Scalar.muli (BitVec.ofNat 32 (i 2).val) 256#32)) (iota .tc S1024x256 32 [1] iota_S1024x256_d1_w32)))
      (broadcast S1024x256 one) (broadcast S1024x256 zero) (ix2 r k)
      = dg ((i 0).val * 1024 + r.val) ((i 2).val * 256 + k.val) := by
  rw [select_apply]
  show Scalar.select (IntOp.cmpi .eq
      (IntOp.addi (Scalar.muli (BitVec.ofNat 32 (i 0).val) 1024#32) (iota .tc S1024x256 32 [0] iota_S1024x256_d0_w32 (ix2 r k)))
      (IntOp.addi (Scalar.muli (BitVec.ofNat 32 (i 2).val) 256#32) (iota .tc S1024x256 32 [1] iota_S1024x256_d1_w32 (ix2 r k))))
    one zero = _
  rw [iota_single_apply, iota_single_apply]
  exact diag_word _ _ _ _ (i 0).isLt (i 2).isLt r.isLt k.isLt

/-- The fused body's new accumulator at (r, c): the loaded accumulator there plus the sum, over the block's 256
    contraction positions k, of the mixed entry at (r, k) times the W block's entry at (k, c). -/
theorem fused_apply (i : grid1.Coords) (v15 : Vec Ideal S1024x256 .f32) (v17 : Vec Ideal S1x256 .f32)
    (v22 : Vec Ideal S1024x256 .f32) (v29 : Vec Ideal S1024x2048 .f32) (v30 : Vec Ideal S256x2048 .bf16)
    (r : Fin 1024) (c : Fin 2048) :
    k1_pay3 (F := Ideal) i v15 v17 v22 v29 v30 (ix2 r c)
      = v29 (ix2 r c) + ∑ k : Fin 256, mix (v15 (ix2 r k)) (v22 (ix2 r k))
          (dg ((i 0).val * 1024 + r.val) ((i 2).val * 256 + k.val)) (v17 (ix2 (0 : Fin 1) k)) * v30 (ix2 k c) := by
  unfold k1_pay3
  dsimp only
  rw [addf_apply, blockProduct_apply]
  refine congrArg (_ + ·) (Finset.sum_congr rfl fun k _ => ?_)
  rw [shapeCast_self, truncf_apply, addf_apply, mulf_apply, mulf_apply, mulf_apply, addf_apply,
    broadcastTo_1b_ab_apply, shapeCast_self, shapeCast_self]
  exact congrArg (fun d => (half * v22 (ix2 r k) + half * ((v15 (ix2 r k) + d) * v17 (ix2 (0 : Fin 1) k))) * v30 (ix2 k c))
    (diag_apply i r k)

end Cert.GraphConv.Pay

end
-- ==== Proof.BlockSum.lean ====
/-
  The block-by-block accumulation is the whole sum.

  The accumulator starts at the zero word and adds, for b = 0, …, 15, the 256 terms of block b.  After block n it
  holds the sum of the first 256 · (n + 1) terms; after block 15 that is every term of the contraction.  Only the
  commutative-monoid laws of addition on the extended reals are used, so no term needs to be finite.
-/
import proofs.«101424_j75093208203291_2_alg».proof.Proof.Spec

noncomputable section

namespace Cert.GraphConv

open scoped BigOperators

/-- A block's share, written as a sum over the naturals below 256. -/
theorem blk_eq_range (f : ℕ → EReal) (b : ℕ) : blk f b = ∑ k ∈ Finset.range 256, f (256 * b + k) :=
  (Finset.sum_range fun k => f (256 * b + k)).symm

/-- After block `n` the accumulator holds the sum of the first `256 · (n + 1)` terms. -/
theorem accum_eq_range (f : ℕ → EReal) (n : ℕ) : accum f n = ∑ k ∈ Finset.range (256 * (n + 1)), f k := by
  induction n with
  | zero =>
    show zero + blk f 0 = _
    rw [zero_eq, zero_add, blk_eq_range]
    exact Finset.sum_congr rfl fun k _ => congrArg f (by omega)
  | succ n ih =>
    show accum f n + blk f (n + 1) = _
    rw [ih, blk_eq_range, show 256 * (n + 1 + 1) = 256 * (n + 1) + 256 by omega, Finset.sum_range_add]

/-- After the last block the accumulator holds the whole sum over the 4096 contraction indices. -/
theorem accum_last (f : ℕ → EReal) : accum f 15 = ∑ k : Fin 4096, f k.val := by
  rw [accum_eq_range]
  exact Finset.sum_range f

end Cert.GraphConv

end
-- ==== Proof.IdealFusedAcc.lean ====
/-
  The fused pass's accumulator, point by point, at the ideal instance.

  Fix a grid point n = (band·2 + half)·16 + slice.  The body reads A's and h's 1024 × 256 blocks at (band, slice), the
  256 inverse degrees of the slice's columns, and W's 256 × 2048 block at (slice, half).  Its stored accumulator is what
  the accumulator held plus, at (r, c), the sum over the slice's 256 contraction indices k of
     (½·h(R,k) + ½·((A(R,k) + [R = k])·invDeg(k)))·W(k, C)
  with R the global row band·1024 + r and C the global column half·2048 + c.  Over a band's sixteen slices the
  accumulator therefore runs through the partial sums of the whole contraction, sixteen blocks of 256 at a time, starting
  from the zero word; the last one is written to the output block, which ends at the matrix product's block.
-/
import proofs.«101424_j75093208203291_2_alg».proof.Proof.IdealFused
import proofs.«101424_j75093208203291_2_alg».proof.Proof.IdealFusedPieces
import proofs.«101424_j75093208203291_2_alg».proof.Proof.Payloads
import proofs.«101424_j75093208203291_2_alg».proof.Proof.BlockSum
import proofs.«101424_j75093208203291_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

/-! ## One term of the contraction, and the indices a grid point works on -/

/-- Term `k` of the contraction for result row `R`, column `C`, as a function on the naturals (zero past 4095):
    the mixed array's entry (R, k), with the inverse degrees given as `D`, times W's entry (k, C). -/
def term (A H Wm : SN.Idx → EReal) (D : Fin 4096 → EReal) (R C : Fin 4096) (k : ℕ) : EReal :=
  if hk : k < 4096 then mix (A (ix2 R ⟨k, hk⟩)) (H (ix2 R ⟨k, hk⟩)) (dg R.val k) (D ⟨k, hk⟩) * Wm (ix2 ⟨k, hk⟩ C) else 0

/-- The global row of local row `r` at grid position `n`: the band is n / 32. -/
def rowOf (n : ℕ) (hn : n < 128) (r : Fin 1024) : Fin 4096 := ⟨n / 32 * 1024 + r.val, by omega⟩
/-- The global column of local column `c`: the half is (n / 16) % 2. -/
def colOf (n : ℕ) (hn : n < 128) (c : Fin 2048) : Fin 4096 := ⟨n / 16 % 2 * 2048 + c.val, by omega⟩
/-- The global contraction index of local index `k`: the slice is n % 16. -/
def kOf (n : ℕ) (k : Fin 256) : Fin 4096 := ⟨256 * (n % 16) + k.val, by omega⟩

/-- ONE SLICE: the stored accumulator at (r, c) is what the accumulator held there plus the slice's block of the
    contraction — for any blocks whose entries are the arrays' at the grid point's global indices. -/
theorem slice_at (i : grid1.Coords) (n : ℕ) (hn : n < 128) (hi0 : (i 0).val = n / 32) (hi2 : (i 2).val = n % 16)
    (A H Wm : SN.Idx → EReal) (D : Fin 4096 → EReal)
    (x0 x1 : Vec Ideal S1024x256 .f32) (x2 : Vec Ideal S1x256 .f32) (x3 : Vec Ideal S256x2048 .bf16) (xs : Vec Ideal S1024x2048 .f32)
    (h0 : ∀ (r : Fin 1024) (k : Fin 256), x0 (ix2 r k) = A (ix2 (rowOf n hn r) (kOf n k)))
    (h1 : ∀ (r : Fin 1024) (k : Fin 256), x1 (ix2 r k) = H (ix2 (rowOf n hn r) (kOf n k)))
    (h2 : ∀ k : Fin 256, x2 (ix2 (0 : Fin 1) k) = D (kOf n k))
    (h3 : ∀ (k : Fin 256) (c : Fin 2048), x3 (ix2 k c) = Wm (ix2 (kOf n k) (colOf n hn c)))
    (r : Fin 1024) (c : Fin 2048) :
    k1_pay1 (F := Ideal) (k1_pay3 i x0 x2 x1 xs x3) (ix2 r c)
      = xs (ix2 r c) + blk (term A H Wm D (rowOf n hn r) (colOf n hn c)) (n % 16) := by
  rw [Cert.GraphConv.Pay.acc_store_eq]
  refine (Cert.GraphConv.Pay.fused_apply i x0 x2 x1 xs x3 r c).trans ?_
  refine congrArg (xs (ix2 r c) + ·) ?_
  unfold blk
  refine Finset.sum_congr rfl fun k _ => ?_
  have hk : 256 * (n % 16) + k.val < 4096 := by omega
  unfold term
  rw [dif_pos hk, h0 r k, h1 r k, h2 k, h3 k c]
  have e : (i 0).val * 1024 + r.val = (rowOf n hn r).val := by unfold rowOf; rw [hi0]
  have e' : (i 2).val * 256 + k.val = 256 * (n % 16) + k.val := by rw [hi2]; omega
  rw [e, e']
  rfl

/-! ## The blocks a grid point reads -/

variable (V : (c : Dev nD) → (b : Ref sig .tc) → Buf (Elt Ideal) ((c : Thread nD τ).loc b)) (c : Dev nD)

theorem tlt (t : Fin cfg1.N) : t.val < 128 := lt_of_lt_of_eq t.isLt (show cfg1.N = 128 from N_1)

/-- The windows' block indices and the grid coordinates at position `t`, decided over the 128 points:
    band t / 32, half (t / 16) % 2, slice t % 16. -/
theorem idx1 : ∀ t : Fin cfg1.N,
    win1_0.index t 0 = t.val / 32 ∧ win1_0.index t 1 = t.val % 16
    ∧ win1_1.index t 0 = t.val / 32 ∧ win1_1.index t 1 = t.val % 16
    ∧ win1_2.index t 0 = 0 ∧ win1_2.index t 1 = t.val % 16
    ∧ win1_3.index t 0 = t.val % 16 ∧ win1_3.index t 1 = t.val / 16 % 2
    ∧ win1_4.index t 0 = t.val / 32 ∧ win1_4.index t 1 = t.val / 16 % 2
    ∧ ((grid1.coords t) 0).val = t.val / 32 ∧ ((grid1.coords t) 2).val = t.val % 16 :=
  (by decide +kernel : ∀ t : Fin grid1.N, _)

/-- The arrays the fused pass reads, as the region finds them. -/
abbrev arrA : SN.Idx → EReal := (V c main_arg0 : S4096x4096.Idx → Elt Ideal .f32)
abbrev arrH : SN.Idx → EReal := (V c main_arg1 : S4096x4096.Idx → Elt Ideal .f32)
abbrev arrW : SN.Idx → EReal := (V c main_v2 : S4096x4096.Idx → Elt Ideal .bf16)
abbrev rowD : Fin 4096 → EReal := fun k => (V c main_v1 : S1x4096.Idx → Elt Ideal .f32) (ix2 (0 : Fin 1) k)

/-- A's block: rows of the band, columns of the slice. -/
theorem blk0_at (t : Fin cfg1.N) (r : Fin 1024) (k : Fin 256) :
    (iblk1 V c 0 t : Vec Ideal S1024x256 .f32) (ix2 r k) = arrA V c (ix2 (rowOf t.val (tlt t) r) (kOf t.val k)) := by
  have hi := idx1 t
  unfold iblk1
  rw [View.read_apply]
  show V c main_arg0 _ = V c main_arg0 _
  congr 1
  funext a
  apply Fin.ext
  match a with
  | ⟨0, _⟩ => show win1_0.index t 0 * 1024 + 1 * r.val = t.val / 32 * 1024 + r.val; rw [hi.1]; omega
  | ⟨1, _⟩ => show win1_0.index t 1 * 256 + 1 * k.val = 256 * (t.val % 16) + k.val; rw [hi.2.1]; omega

/-- h's block: the same rows and columns. -/
theorem blk1_at (t : Fin cfg1.N) (r : Fin 1024) (k : Fin 256) :
    (iblk1 V c 1 t : Vec Ideal S1024x256 .f32) (ix2 r k) = arrH V c (ix2 (rowOf t.val (tlt t) r) (kOf t.val k)) := by
  have hi := idx1 t
  unfold iblk1
  rw [View.read_apply]
  show V c main_arg1 _ = V c main_arg1 _
  congr 1
  funext a
  apply Fin.ext
  match a with
  | ⟨0, _⟩ => show win1_1.index t 0 * 1024 + 1 * r.val = t.val / 32 * 1024 + r.val; rw [hi.2.2.1]; omega
  | ⟨1, _⟩ => show win1_1.index t 1 * 256 + 1 * k.val = 256 * (t.val % 16) + k.val; rw [hi.2.2.2.1]; omega

/-- The inverse degrees' block: the slice's 256 columns of the [1, 4096] row. -/
theorem blk2_at (t : Fin cfg1.N) (k : Fin 256) :
    (iblk1 V c 2 t : Vec Ideal S1x256 .f32) (ix2 (0 : Fin 1) k) = rowD V c (kOf t.val k) := by
  have hi := idx1 t
  unfold iblk1
  rw [View.read_apply]
  show V c main_v1 _ = V c main_v1 _
  congr 1
  funext a
  apply Fin.ext
  match a with
  | ⟨0, _⟩ => show win1_2.index t 0 * 1 + 1 * 0 = 0; rw [hi.2.2.2.2.1]
  | ⟨1, _⟩ => show win1_2.index t 1 * 256 + 1 * k.val = 256 * (t.val % 16) + k.val; rw [hi.2.2.2.2.2.1]; omega

/-- W's block: rows of the slice, columns of the half. -/
theorem blk3_at (t : Fin cfg1.N) (k : Fin 256) (d : Fin 2048) :
    (iblk1 V c 3 t : Vec Ideal S256x2048 .bf16) (ix2 k d) = arrW V c (ix2 (kOf t.val k) (colOf t.val (tlt t) d)) := by
  have hi := idx1 t
  unfold iblk1
  rw [View.read_apply]
  show V c main_v2 _ = V c main_v2 _
  congr 1
  funext a
  apply Fin.ext
  match a with
  | ⟨0, _⟩ => show win1_3.index t 0 * 256 + 1 * k.val = 256 * (t.val % 16) + k.val; rw [hi.2.2.2.2.2.2.1]; omega
  | ⟨1, _⟩ => show win1_3.index t 1 * 2048 + 1 * d.val = t.val / 16 % 2 * 2048 + d.val; rw [hi.2.2.2.2.2.2.2.1]; omega

/-! ## The accumulator, point by point -/

/-- The contraction's terms for the result entry that local (r, d) is at position `n`. -/
abbrev termAt (n : ℕ) (hn : n < 128) (r : Fin 1024) (d : Fin 2048) : ℕ → EReal :=
  term (arrA V c) (arrH V c) (arrW V c) (rowD V c) (rowOf n hn r) (colOf n hn d)

/-- What a point's stored accumulator is, over any previous contents `xs`. -/
theorem stored_at (t : Fin cfg1.N) (xs : Vec Ideal S1024x2048 .f32) (r : Fin 1024) (d : Fin 2048) :
    k1_pay1 (F := Ideal) (k1_pay3 (grid1.coords t) (iblk1 V c 0 t) (iblk1 V c 2 t) (iblk1 V c 1 t) xs (iblk1 V c 3 t)) (ix2 r d)
      = xs (ix2 r d) + blk (termAt V c t.val (tlt t) r d) (t.val % 16) :=
  slice_at (grid1.coords t) t.val (tlt t) (idx1 t).2.2.2.2.2.2.2.2.2.2.1 (idx1 t).2.2.2.2.2.2.2.2.2.2.2
    (arrA V c) (arrH V c) (arrW V c) (rowD V c) (iblk1 V c 0 t) (iblk1 V c 1 t) (iblk1 V c 2 t) (iblk1 V c 3 t) xs
    (blk0_at V c t) (blk1_at V c t) (blk2_at V c t) (blk3_at V c t) r d

/-- At a band's first slice the accumulator becomes the zero word plus the slice's block. -/
theorem acc_first (t : Fin cfg1.N) (h0 : t.val % 16 = 0) (h1 : ¬t.val % 16 = 15) (r : Fin 1024) (d : Fin 2048) :
    (outsAt1 V c t.val t.isLt).2 (ix2 r d) = zero + blk (termAt V c t.val (tlt t) r d) (t.val % 16) := by
  rw [outsAt1_A V c t h0 h1]
  unfold ptA
  dsimp only
  rw [accA_eq c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) ((hcond1_0 t).mpr h0) (fun h => h1 ((hcond1_1 t).mp h))]
  refine (stored_at V c t _ r d).trans ?_
  rw [Cert.GraphConv.Pay.zero_store_apply]

/-- At any other slice it becomes what it held plus the slice's block. -/
theorem acc_next (t : Fin cfg1.N) (h0 : ¬t.val % 16 = 0) (r : Fin 1024) (d : Fin 2048) :
    (outsAt1 V c t.val t.isLt).2 (ix2 r d)
      = (outsAt1 V c (t.val - 1) (Nat.lt_of_le_of_lt (Nat.sub_le _ _) t.isLt)).2 (ix2 r d) + blk (termAt V c t.val (tlt t) r d) (t.val % 16) := by
  by_cases h1 : t.val % 16 = 15
  · rw [outsAt1_C V c t h0 h1]
    unfold ptC
    dsimp only
    rw [accC_eq c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) ((hcond1_1 t).mpr h1)]
    exact stored_at V c t _ r d
  · rw [outsAt1_B V c t h0 h1]
    unfold ptB
    dsimp only
    rw [accB_eq c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) (fun h => h1 ((hcond1_1 t).mp h))]
    exact stored_at V c t _ r d

/-- THE INVARIANT: after position `n` the accumulator holds the contraction's partial sum through the position's slice. -/
theorem acc_inv : ∀ (n : ℕ) (hn : n < 128) (r : Fin 1024) (d : Fin 2048),
    (outsAt1 V c n (lt_of_lt_of_eq hn (show (128 : ℕ) = cfg1.N from N_1.symm))).2 (ix2 r d) = accum (termAt V c n hn r d) (n % 16) := by
  intro n
  induction n with
  | zero =>
    intro hn r d
    exact (acc_first V c ⟨0, lt_of_lt_of_eq hn N_1.symm⟩ (Nat.zero_mod _) (by show ¬ (0 : ℕ) % 16 = 15; decide) r d)
  | succ n ih =>
    intro hn r d
    by_cases h0 : (n + 1) % 16 = 0
    · have h1 : ¬(n + 1) % 16 = 15 := by omega
      refine (acc_first V c ⟨n + 1, lt_of_lt_of_eq hn N_1.symm⟩ h0 h1 r d).trans ?_
      show zero + blk _ ((n + 1) % 16) = accum _ ((n + 1) % 16)
      rw [h0]; rfl
    · refine (acc_next V c ⟨n + 1, lt_of_lt_of_eq hn N_1.symm⟩ h0 r d).trans ?_
      have hn' : n < 128 := by omega
      have hs : (n + 1) % 16 = n % 16 + 1 := by omega
      have er : rowOf (n + 1) hn r = rowOf n hn' r := Fin.ext (by unfold rowOf; show (n + 1) / 32 * 1024 + r.val = n / 32 * 1024 + r.val; omega)
      have ec : colOf (n + 1) hn d = colOf n hn' d := Fin.ext (by unfold colOf; show (n + 1) / 16 % 2 * 2048 + d.val = n / 16 % 2 * 2048 + d.val; omega)
      show (outsAt1 V c (n + 1 - 1) _).2 (ix2 r d) + blk (termAt V c (n + 1) hn r d) ((n + 1) % 16) = accum (termAt V c (n + 1) hn r d) ((n + 1) % 16)
      have e : termAt V c (n + 1) hn r d = termAt V c n hn' r d := by unfold termAt; rw [er, ec]
      rw [e, hs]
      show (outsAt1 V c n _).2 (ix2 r d) + _ = accum _ (n % 16) + _
      rw [ih hn' r d]

end Cert.KernelIdeal.Hand

end
-- ==== Proof.IdealFusedValue.lean ====
/-
  The fused pass's result array, at the ideal instance.

  After a band's sixteenth slice the accumulator holds the whole contraction for each entry of the band's half, and the
  body copies it to the output block.  With the row of inverse degrees in place, that contraction is the
  specification's entry at the entry's global row and column.  The output window is written back only at those last
  slices; their blocks, one per band and half, tile the result array.  So the array ends at the specification.
-/
import proofs.«101424_j75093208203291_2_alg».proof.Proof.IdealFusedAcc

set_option maxRecDepth 16384

noncomputable section

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## The output block, and the result array -/

/-- At a band's last slice the output block holds the last partial sum: the whole contraction. -/
theorem out_last (t : Fin cfg1.N) (h1 : t.val % 16 = 15) (r : Fin 1024) (d : Fin 2048) :
    (outsAt1 V c t.val t.isLt).1 (ix2 r d) = accum (termAt V c t.val (tlt t) r d) 15 := by
  have h0 : ¬t.val % 16 = 0 := by omega
  have ht := tlt t
  have hp : t.val - 1 < 128 := by omega
  rw [outsAt1_C V c t h0 h1]
  unfold ptC
  dsimp only
  rw [outC_eq c (grid1.coords t) (ms1_0 t) (hs1_0 t) (ms1_1 t) (hs1_1 t) (ms1_2 t) (hs1_2 t) (ms1_3 t) (hs1_3 t) (ms1_4 t) (hs1_4 t) accM (Memref.isWhole_whole _) (iblk1 V c 0 t) (iblk1 V c 1 t) (iblk1 V c 2 t) (iblk1 V c 3 t) (fun h => h0 ((hcond1_0 t).mp h)) ((hcond1_1 t).mpr h1)]
  refine (stored_at V c t _ r d).trans ?_
  have er : rowOf (t.val - 1) hp r = rowOf t.val ht r := Fin.ext (by unfold rowOf; show (t.val - 1) / 32 * 1024 + r.val = t.val / 32 * 1024 + r.val; omega)
  have ec : colOf (t.val - 1) hp d = colOf t.val ht d := Fin.ext (by unfold colOf; show (t.val - 1) / 16 % 2 * 2048 + d.val = t.val / 16 % 2 * 2048 + d.val; omega)
  have e : termAt V c (t.val - 1) hp r d = termAt V c t.val ht r d := by unfold termAt; rw [er, ec]
  have hs : (t.val - 1) % 16 = 14 := by omega
  have ih := acc_inv V c (t.val - 1) hp r d
  rw [e, hs] at ih
  show (outsAt1 V c (t.val - 1) _).2 (ix2 r d) + blk _ (t.val % 16) = _
  rw [ih, h1]
  rfl

/-- With the row of inverse degrees in place, the whole contraction is the specification's entry. -/
theorem full_sum (hD : ∀ k : Fin 4096, rowD V c k = invDeg (arrA V c) k) (R C : Fin 4096) :
    accum (term (arrA V c) (arrH V c) (arrW V c) (rowD V c) R C) 15 = Gat (arrA V c) (arrH V c) (arrW V c) R C := by
  rw [accum_last]
  unfold Gat
  refine Finset.sum_congr rfl fun k _ => ?_
  unfold term
  rw [dif_pos k.isLt]
  unfold temp
  rw [hD]

/-- The global row and column of an entry of the output block at position `t`. -/
def rowAt (t : Fin cfg1.N) (j : S1024x2048.Idx) : Fin 4096 :=
  ⟨t.val / 32 * 1024 + (j 0).val, by have ht := tlt t; have hj : (j 0 : ℕ) < 1024 := (j 0).isLt; omega⟩
def colAt (t : Fin cfg1.N) (j : S1024x2048.Idx) : Fin 4096 :=
  ⟨t.val / 16 % 2 * 2048 + (j 1).val, by have ht := tlt t; have hj : (j 1 : ℕ) < 2048 := (j 1).isLt; omega⟩

/-- The output block at a band's last slice, entry by entry: the specification at the entry's global row and column. -/
theorem out_last_at (hD : ∀ k : Fin 4096, rowD V c k = invDeg (arrA V c) k) (t : Fin cfg1.N) (h1 : t.val % 16 = 15) (j : S1024x2048.Idx) :
    (outsAt1 V c t.val t.isLt).1 j = Gat (arrA V c) (arrH V c) (arrW V c) (rowAt t j) (colAt t j) := by
  obtain ⟨r, d, rfl⟩ : ∃ (r : Fin 1024) (d : Fin 2048), j = ix2 r d := ⟨j 0, j 1, eq_ix2 j⟩
  rw [out_last V c t h1 r d]
  exact full_sum V c hD _ _

/-- What a band's last slice writes back is the specification's block. -/
theorem flushed4 (hD : ∀ k : Fin 4096, rowD V c k = invDeg (arrA V c) k) (t : Fin cfg1.N) (hf : (cfg1.win 4).flush t = true) :
    (dat1 (F := Ideal) V c).flushed 4 t = ((cfg1.win 4).blk t).view.read (Elt Ideal) (G (arrA V c) (arrH V c) (arrW V c)) := by
  have h1 : t.val % 16 = 15 := (flush1_4 t).mp hf
  have hi := idx1 t
  show (cfg1.win 4).cut (grid1.coords t) ((dat1 V c).after 4 t) = _
  rw [after1_4]
  funext j
  show (outsAt1 V c t.val t.isLt).1 j = G (arrA V c) (arrH V c) (arrW V c) (((cfg1.win 4).blk t).view.emb j)
  refine (out_last_at V c hD t h1 j).trans ?_
  have e0 : rowAt t j = (((cfg1.win 4).blk t).view.emb j) 0 := Fin.ext (by
    show t.val / 32 * 1024 + (j 0).val = win1_4.index t 0 * 1024 + 1 * (j 0).val
    rw [hi.2.2.2.2.2.2.2.2.1]; omega)
  have e1 : colAt t j = (((cfg1.win 4).blk t).view.emb j) 1 := Fin.ext (by
    show t.val / 16 % 2 * 2048 + (j 1).val = win1_4.index t 1 * 2048 + 1 * (j 1).val
    rw [hi.2.2.2.2.2.2.2.2.2.1]; omega)
  exact congrArg₂ (Gat (arrA V c) (arrH V c) (arrW V c)) e0 e1

/-- An index of the result is in position `t`'s output block iff each coordinate is in the block's range. -/
theorem mem_blk4 (t : Fin cfg1.N) (i : S4096x4096.Idx) :
    i ∈ ((cfg1.win 4).blk t).view.set ↔ ∀ a : Fin 2, win1_4.index t a * S1024x2048.size a ≤ (i a).val ∧ (i a).val < win1_4.index t a * S1024x2048.size a + S1024x2048.size a := by
  show i ∈ ((View.whole main_v3).slice (win1_4.rect t)).set ↔ _
  rw [View.set_slice_whole, Rect.mem_set_unit]
  exact Iff.rfl

/-- Every entry of the result lies in the output block of its band's and half's last slice. -/
theorem cover4 (i : S4096x4096.Idx) :
    ∃ t : Fin cfg1.N, (cfg1.win 4).flush t = true ∧ i ∈ ((cfg1.win 4).blk t).view.set := by
  have b0 : (i 0 : ℕ) < 4096 := (i 0).isLt
  have b1 : (i 1 : ℕ) < 4096 := (i 1).isLt
  obtain ⟨n, hn, hq0, hq1, hq2⟩ : ∃ n : ℕ, n < 128 ∧ n / 32 = (i 0 : ℕ) / 1024 ∧ n / 16 % 2 = (i 1 : ℕ) / 2048 ∧ n % 16 = 15 :=
    ⟨((i 0 : ℕ) / 1024 * 2 + (i 1 : ℕ) / 2048) * 16 + 15, by omega, by omega, by omega, by omega⟩
  refine ⟨⟨n, lt_of_lt_of_eq hn N_1.symm⟩, (flush1_4 _).mpr hq2, ?_⟩
  rw [mem_blk4]
  have hi := idx1 ⟨n, lt_of_lt_of_eq hn N_1.symm⟩
  have e0 : win1_4.index ⟨n, lt_of_lt_of_eq hn N_1.symm⟩ 0 = n / 32 := hi.2.2.2.2.2.2.2.2.1
  have e1 : win1_4.index ⟨n, lt_of_lt_of_eq hn N_1.symm⟩ 1 = n / 16 % 2 := hi.2.2.2.2.2.2.2.2.2.1
  intro a
  match a with
  | ⟨0, _⟩ =>
    show win1_4.index ⟨n, lt_of_lt_of_eq hn N_1.symm⟩ 0 * 1024 ≤ (i 0 : ℕ) ∧ (i 0 : ℕ) < win1_4.index ⟨n, lt_of_lt_of_eq hn N_1.symm⟩ 0 * 1024 + 1024
    rw [e0]; omega
  | ⟨1, _⟩ =>
    show win1_4.index ⟨n, lt_of_lt_of_eq hn N_1.symm⟩ 1 * 2048 ≤ (i 1 : ℕ) ∧ (i 1 : ℕ) < win1_4.index ⟨n, lt_of_lt_of_eq hn N_1.symm⟩ 1 * 2048 + 2048
    rw [e1]; omega

/-- THE RESULT ARRAY: once the row of inverse degrees is in place, the fused pass's output array ends at the
    specification of the arrays it reads. -/
theorem fused_array (hD : ∀ k : Fin 4096, rowD V c k = invDeg (arrA V c) k) :
    (dat1 (F := Ideal) V c).arrAt 4 cfg1.N = G (arrA V c) (arrH V c) (arrW V c) :=
  (dat1 (F := Ideal) V c).arrAt_eq_of_cover 4 (G (arrA V c) (arrH V c) (arrW V c)) (flushed4 V c hD) (fun i => cover4 i)

end Cert.KernelIdeal.Hand

end
-- ==== Proof.IdealDegreeValue.lean ====
/-
  The degree pass's output array, read at a row.

  The first kernel walks A in eight blocks of 512 rows and writes, at every grid point, the 512 × 1 block of
  inverse degrees of the rows it just read.  Block t of the input is rows 512·t, …, 512·t + 511 of A; block t of the
  output is the same rows of the [4096, 1] result.  The eight output blocks tile the result (row r lies in block
  r / 512), so after the pass the result holds, at row r, one over (the sum of A's row r, plus one).
-/
import proofs.«101424_j75093208203291_2_alg».proof.Proof.IdealDegree
import proofs.«101424_j75093208203291_2_alg».proof.Proof.Payloads
import proofs.«101424_j75093208203291_2_alg».proof.Proof.Spec
import Idealize.ShloMosaic.Lib.Pipeline.Value
import Idealize.ShloMosaic.Lib.ValueIdx

noncomputable section

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block rectangle, as the constant function. -/
theorem degree_offsets_zero : (![0, 0] : Fin 2 → Nat) = fun _ => 0 := funext fun a => by fin_cases a <;> rfl

/-- The output block after the body, at row `r`: one over (the sum of the input block's row r, plus one). -/
theorem out0_1_apply (x0 : Vec Ideal S512x4096 .f32) (r : Fin 512) :
    out0_1 (F := Ideal) x0 (ix2 r (0 : Fin 1))
      = Ideal.div Cert.GraphConv.one ((∑ k : Fin 4096, x0 (ix2 r k)) + Cert.GraphConv.one) := by
  unfold out0_1
  rw [View.canon_unit_zero degree_offsets_zero, View.ld_unit_zero (S := S512x4096) degree_offsets_zero]
  exact Cert.GraphConv.Pay.degree_apply x0 r

/-- The block indices of the two windows at grid point `t`: block (t, 0) of A and block (t, 0) of the result. -/
theorem degree_index_facts (t : Fin grid0.N) :
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0)) t

/-- The input window's block at point `t` is rows `512·t … 512·t + 511` of A. -/
theorem iblk0_apply (c : Dev nD) (t : Fin cfg0.N) (x : S512x4096.Idx) (k : S4096x4096.Idx)
    (hk0 : (k 0).val = 512 * t.val + (x 0).val) (hk1 : (k 1).val = (x 1).val) :
    (iblk0 V c 0 t : Vec Ideal S512x4096 .f32) x = (V c main_arg0 : S4096x4096.Idx → EReal) k := by
  have hi := (degree_index_facts t).1
  unfold iblk0
  rw [View.read_apply]
  show V c main_arg0 _ = V c main_arg0 _
  congr 1
  funext a
  apply Fin.ext
  match a with
  | ⟨0, _⟩ => show win0_0.index t 0 * 512 + 1 * (x 0).val = (k 0).val; rw [hi.1, hk0]; omega
  | ⟨1, _⟩ => show win0_0.index t 1 * 4096 + 1 * (x 1).val = (k 1).val; rw [hi.2, hk1]; omega

/-- The array the degree pass leaves: at row r, the inverse degree of row r of A. -/
def degArr (c : Dev nD) : Buf (Elt Ideal) ((c : Thread nD τ).loc main_v0) :=
  fun j : S4096x1.Idx => invDeg (V c main_arg0) (j 0)

/-- What the body leaves in the output block at point `t`, at a row of the block, is the inverse degree of the
    row of A that sits there. -/
theorem out_point (c : Dev nD) (t : Fin cfg0.N) (y : S512x1.Idx) (i : S4096x1.Idx)
    (hi0 : (i 0).val = 512 * t.val + (y 0).val) :
    out0_1 (F := Ideal) (iblk0 V c 0 t) y = invDeg (V c main_arg0) (i 0) := by
  obtain ⟨p, q, rfl⟩ : ∃ (p : Fin 512) (q : Fin 1), y = ix2 p q := ⟨y 0, y 1, eq_ix2 y⟩
  obtain rfl : q = 0 := Subsingleton.elim q 0
  rw [out0_1_apply]
  unfold invDeg
  refine congrArg (fun s => Ideal.div Cert.GraphConv.one (s + Cert.GraphConv.one)) (Finset.sum_congr rfl fun k _ => ?_)
  exact iblk0_apply V c t (ix2 p k) (ix2 (i 0) k) hi0 rfl

/-- Every write-back writes the block of `degArr` it covers. -/
theorem flushed0_1_eq (c : Dev nD) (t : Fin cfg0.N) (hf : (cfg0.win 1).flush t = true) :
    (dat0 (F := Ideal) V c).flushed 1 t = ((cfg0.win 1).blk t).view.read (Elt Ideal) (degArr V c) := by
  have hi := (degree_index_facts t).2
  show (cfg0.win 1).cut (grid0.coords t) ((dat0 (F := Ideal) V c).after 1 t) = _
  rw [after0_1]
  refine funext fun (y : S512x1.Idx) => ?_
  rw [View.read_apply]
  show out0_1 (F := Ideal) (iblk0 V c 0 t) y = invDeg (V c main_arg0) ((((cfg0.win 1).blk t).view.emb y : S4096x1.Idx) 0)
  refine out_point V c t y _ ?_
  show win0_1.index t 0 * 512 + 1 * (y 0).val = 512 * t.val + (y 0).val
  rw [hi.1]; omega

/-- So the result array ends holding `degArr`: the eight blocks tile it, row r in block r / 512. -/
theorem degree_final (c : Dev nD) : (dat0 (F := Ideal) V c).arrAt 1 cfg0.N = degArr V c :=
  (dat0 (F := Ideal) V c).arrAt_eq_of_cover 1 (degArr V c) (flushed0_1_eq V c) fun (i : S4096x1.Idx) => by
    have hN : grid0.N = 8 := N_0
    have h0 : (i 0 : Nat) < 4096 := (i 0).isLt
    have h1 : (i 1 : Nat) < 1 := (i 1).isLt
    have ht : (i 0 : Nat) / 512 < grid0.N := by rw [hN]; omega
    have hi := (degree_index_facts ⟨(i 0 : Nat) / 512, ht⟩).2
    refine ⟨⟨(i 0 : Nat) / 512, ht⟩, flush0_1 _, ?_⟩
    show i ∈ ((View.whole main_v0).slice (win0_1.rect ⟨(i 0 : Nat) / 512, ht⟩)).set
    rw [View.set_slice_whole, Rect.mem_set_unit]
    intro a
    match a with
    | ⟨0, _⟩ =>
      show win0_1.index ⟨(i 0 : Nat) / 512, ht⟩ 0 * 512 ≤ (i 0 : Nat)
        ∧ (i 0 : Nat) < win0_1.index ⟨(i 0 : Nat) / 512, ht⟩ 0 * 512 + 512
      rw [hi.1]; show (i 0 : Nat) / 512 * 512 ≤ (i 0 : Nat) ∧ (i 0 : Nat) < (i 0 : Nat) / 512 * 512 + 512; omega
    | ⟨1, _⟩ =>
      show win0_1.index ⟨(i 0 : Nat) / 512, ht⟩ 1 * 1 ≤ (i 1 : Nat)
        ∧ (i 1 : Nat) < win0_1.index ⟨(i 0 : Nat) / 512, ht⟩ 1 * 1 + 1
      rw [hi.2]; omega

/-- The degree pass's output array at row r is the inverse degree of row r of the array held for A. -/
theorem degree_array (c : Dev nD) (r : Fin 4096) :
    ((dat0 (F := Ideal) V c).arrAt 1 cfg0.N : S4096x1.Idx → EReal) (ix2 r (0 : Fin 1)) = invDeg (V c main_arg0) r :=
  (congrFun (degree_final V c) (ix2 r (0 : Fin 1))).trans rfl

end Cert.KernelIdeal.Hand

end
-- ==== Proof.IdealHost.lean ====
/-
  The two host operations between the kernel regions, read at an index.

  Between the degree pass and the fused pass the host reshapes the [4096, 1] column of inverse degrees into a
  [1, 4096] row, and converts W to the narrower float format (the identity on the extended reals).  Both arrays have
  their elements in the same row-major order, so the row's entry k is the column's entry k; neither operation writes
  an argument.
-/
import proofs.«101424_j75093208203291_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.SL.Sem

/-- The row of inverse degrees the fused pass reads: entry k of the reshaped row is entry k of the column. -/
theorem host_row (X : Valuation τ sig (Elt Ideal)) (k : Fin 4096) :
    (StableHlo.after (hostOps1 (F := Ideal)) X (Proc.devRef .tc main_v1) : S1x4096.Idx → EReal) (ix2 (0 : Fin 1) k)
      = (X (Proc.devRef .tc main_v0) : S4096x1.Idx → EReal) (ix2 k (0 : Fin 1)) := by
  have e : (StableHlo.after (hostOps1 (F := Ideal)) X (Proc.devRef .tc main_v1) : S1x4096.Idx → EReal)
      = shapeCast S1x4096 (X (Proc.devRef .tc main_v0) : S4096x1.Idx → EReal) shapeCasts_S4096x1_S1x4096 := by
    after_results; rfl
  rw [e]
  refine shapeCast_apply _ _ _ _ ?_
  show (S4096x1.rowMajor (ix2 k (0 : Fin 1))).val = (S1x4096.rowMajor (ix2 (0 : Fin 1) k)).val
  rw [Shape.rowMajor_val_two, Shape.rowMajor_val_two]
  show k.val * 1 + 0 = 0 * 4096 + k.val
  omega

/-- The converted W the fused pass reads is W, entry by entry. -/
theorem host_w (X : Valuation τ sig (Elt Ideal)) (j : S4096x4096.Idx) :
    (StableHlo.after (hostOps1 (F := Ideal)) X (Proc.devRef .tc main_v2) : S4096x4096.Idx → EReal) j
      = (X (Proc.devRef .tc main_arg2) : S4096x4096.Idx → EReal) j := by
  have e : (StableHlo.after (hostOps1 (F := Ideal)) X (Proc.devRef .tc main_v2) : S4096x4096.Idx → EReal)
      = truncf (F := Ideal) .bf16 (X (Proc.devRef .tc main_arg2) : S4096x4096.Idx → EReal) bitsLt_bf16_f32 := by
    after_results
  rw [e]
  rfl

/-- Neither host operation writes A. -/
theorem host_keeps_arg0 (X : Valuation τ sig (Elt Ideal)) :
    StableHlo.after (hostOps1 (F := Ideal)) X (Proc.devRef .tc main_arg0) = X (Proc.devRef .tc main_arg0) :=
  StableHlo.after_of_forall_not_mem (b := Proc.devRef .tc main_arg0) _ _ (List.forall_iff_forall_mem.mp (by
    simp only [hostOps1, List.Forall, StableHlo.unary_writes, StableHlo.reshape_writes, Finset.mem_singleton]
    repeat' apply And.intro
    all_goals exact StableHlo.devRef_ne_of_ne (by decide)))

/-- Neither host operation writes h. -/
theorem host_keeps_arg1 (X : Valuation τ sig (Elt Ideal)) :
    StableHlo.after (hostOps1 (F := Ideal)) X (Proc.devRef .tc main_arg1) = X (Proc.devRef .tc main_arg1) :=
  StableHlo.after_of_forall_not_mem (b := Proc.devRef .tc main_arg1) _ _ (List.forall_iff_forall_mem.mp (by
    simp only [hostOps1, List.Forall, StableHlo.unary_writes, StableHlo.reshape_writes, Finset.mem_singleton]
    repeat' apply And.intro
    all_goals exact StableHlo.devRef_ne_of_ne (by decide)))

end Cert.KernelIdeal.Hand

end
-- ==== Proof.KernelValue.lean ====
/-
  The kernel's result, in terms of the arrays it was launched with.

  The fused pass is entered after the degree pass and the two host operations.  At that moment A and h are as
  launched (nothing writes an argument); the [1, 4096] row holds the inverse degrees, being the degree pass's [4096, 1]
  column re-read in the same row-major order; and the converted copy of W holds W's entries, the change of float format
  being the identity at the ideal instance.  So the fused pass's output array, and with it the program's result, is the
  specification of A, h and W.
-/
import proofs.«101424_j75093208203291_2_alg».proof.Proof.IdealRun
import proofs.«101424_j75093208203291_2_alg».proof.Proof.IdealFusedValue
import proofs.«101424_j75093208203291_2_alg».proof.Proof.IdealDegreeValue
import proofs.«101424_j75093208203291_2_alg».proof.Proof.IdealHost

noncomputable section

namespace Cert.KernelIdeal.Hand

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A as the fused pass finds it is A as launched. -/
theorem entry_A (c : Dev nD) : VE2 m ρ c main_arg0 = m ((c : Thread nD τ).loc main_arg0) :=
  (host_keeps_arg0 (W1 m ρ c)).trans ((W1_arr m ρ c 0).trans (((dat0 (VE0 m ρ) c).arrAt_in 0 rfl _).trans (A_eq0 (VE0 m ρ) c 0)))

/-- h as the fused pass finds it is h as launched. -/
theorem entry_h (c : Dev nD) : VE2 m ρ c main_arg1 = m ((c : Thread nD τ).loc main_arg1) :=
  (host_keeps_arg1 (W1 m ρ c)).trans (W1_of_ne m ρ c main_arg1 (by decide))

/-- The converted copy of W holds W's entries. -/
theorem entry_W (c : Dev nD) : arrW (VE2 m ρ) c = (m ((c : Thread nD τ).loc main_arg2) : S4096x4096.Idx → Elt Ideal .f32) :=
  funext fun j => (host_w (W1 m ρ c) j).trans (congrFun (W1_of_ne m ρ c main_arg2 (by decide)) j)

/-- The row the fused pass reads holds the inverse degrees of A as launched. -/
theorem entry_row (c : Dev nD) (k : Fin 4096) :
    rowD (VE2 m ρ) c k = invDeg (m ((c : Thread nD τ).loc main_arg0) : S4096x4096.Idx → Elt Ideal .f32) k :=
  (host_row (W1 m ρ c) k).trans ((congrFun (W1_arr m ρ c 1) (ix2 k (0 : Fin 1))).trans (degree_array (VE0 m ρ) c k))

/-- THE RESULT: the fused pass's output array is the specification of the launch arrays. -/
theorem result_is_G (c : Dev nD) :
    (dat1 (F := Ideal) (VE2 m ρ) c).arrAt 4 cfg1.N
      = G (m ((c : Thread nD τ).loc main_arg0)) (m ((c : Thread nD τ).loc main_arg1)) (m ((c : Thread nD τ).loc main_arg2)) := by
  have hA : arrA (VE2 m ρ) c = (m ((c : Thread nD τ).loc main_arg0) : S4096x4096.Idx → Elt Ideal .f32) := entry_A m ρ c
  have hH : arrH (VE2 m ρ) c = (m ((c : Thread nD τ).loc main_arg1) : S4096x4096.Idx → Elt Ideal .f32) := entry_h m ρ c
  rw [fused_array (VE2 m ρ) c (fun k => by rw [hA]; exact entry_row m ρ c k), hA, hH, entry_W m ρ c]

/-- The program's run with its result named by the specification. -/
theorem value_run : θ_run defs (onTc (τ := τ) (main (F := Ideal))) ⟨m, fun _ => 0, ρ⟩ (fun r => ∀ c : Dev nD,
      r.2.mem ((c.tc : Thread nD τ).loc main_v3)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_is_G m ρ c), (h c).2⟩) (run_result (F := Ideal) m ρ)

end Cert.KernelIdeal.Hand

end
-- ==== Proof.RefValue.lean ====
/-
  The reference's result, read index by index, is the function `Cert.GraphConv.G` of the three arguments.

  The reference computes, in order: the row sums of A (from the zero word) plus one, and one over that, which is the
  inverse degree; the identity matrix, as the comparison "row number = column number" converted to a float; A plus the
  identity, times the inverse degrees laid along the columns; half of h plus half of that; and the matrix product of
  the mixed array with W.  Each step is read at an index below.
-/
import proofs.«101424_j75093208203291_2_alg».proof.Proof.Gen.ReferenceIdeal.Read
import proofs.«101424_j75093208203291_2_alg».proof.Proof.Spec

noncomputable section

namespace Cert.GraphConv.Ref

open Cert.ReferenceIdeal Cert.ReferenceIdeal.Read Idealize.ShloMosaic Idealize.ShloMosaic.ValueIdx

/-- Two numbers below 4096 are equal as 32-bit words exactly when they are equal. -/
theorem word_eq_iff (a b : Fin 4096) : (BitVec.ofNat 32 a.val + 0#32 == BitVec.ofNat 32 b.val) = decide (a.val = b.val) := by
  have ha : a.val < 4096 := a.isLt
  have hb : b.val < 4096 := b.isLt
  rw [BitVec.add_zero]
  by_cases h : a.val = b.val
  · rw [h]; simp
  · rw [decide_eq_false h]
    apply beq_eq_false_iff_ne.mpr
    intro e
    apply h
    have := congrArg BitVec.toNat e
    simp only [BitVec.toNat_ofNat] at this
    omega

/-- The identity matrix the reference builds: the comparison of the row number with the column number, as a float. -/
theorem eye_at (r k : Fin 4096) : val_main_v10 (F := Ideal) (ix2 r k) = dg r.val k.val := by
  rw [val_main_v10_apply, val_main_v9_apply, val_main_v8_apply, val_main_v5_apply, val_main_v7_apply, val_main_c_apply,
    val_main_v6_apply]
  show (((BitVec.ofBool (BitVec.ofNat 32 r.val + 0#32 == BitVec.ofNat 32 k.val)).toNat : ℝ) : EReal) = _
  rw [word_eq_iff]
  unfold dg
  by_cases h : r.val = k.val
  · rw [if_pos h, decide_eq_true h, one_eq]; simp
  · rw [if_neg h, decide_eq_false h, zero_eq]; simp

/-- The inverse degrees the reference computes: one over (the row sum from the zero word, plus one). -/
theorem invDeg_at (x0 : (⟨S4096x4096, .f32⟩ : BufTy).Contents (Elt Ideal)) (k : Fin 4096) :
    val_main_v4 (F := Ideal) x0 (ix1 k) = invDeg x0 k := by
  have e0 : ∀ j : Fin 4096, idx_main_v0 (ix1 k) j = ix2 k j := fun j =>
    funext fun a => by match a with | ⟨0, _⟩ => rfl | ⟨1, _⟩ => rfl
  rw [val_main_v4_apply, val_main_v3_apply, val_main_cst_1_apply, val_main_v2_apply, val_main_v0_apply,
    val_main_cst_apply, val_main_v1_apply, val_main_cst_0_apply]
  simp only [Ideal.hostDivf_def, Ideal.addf_def, Ideal.ofBits_def, e0]
  rw [Ideal.ofBits_zero_f32, zero_add]
  rfl

/-- The mixed array the reference forms, at row `r` and column `k`. -/
theorem mixed_at (x0 x1 : (⟨S4096x4096, .f32⟩ : BufTy).Contents (Elt Ideal)) (r k : Fin 4096) :
    val_main_v19 (F := Ideal) x0 x1 (ix2 r k) = temp x0 x1 r k := by
  have e1 : idx_main_v12 (idx_main_v13 (ix2 r k)) = ix1 k :=
    funext fun a => by match a with | ⟨0, _⟩ => rfl
  rw [val_main_v19_apply, val_main_v16_apply, val_main_v15_apply, val_main_cst_2_apply, val_main_v18_apply,
    val_main_v17_apply, val_main_cst_3_apply, val_main_v14_apply, val_main_v11_apply, val_main_v13_apply,
    val_main_v12_apply, e1, invDeg_at, eye_at]
  simp only [Ideal.addf_def, Ideal.mulf_def, Ideal.ofBits_def]
  rfl

/-- The reference's result is `G`: the matrix product of the mixed array with W. -/
theorem ref_is_G (x0 x1 x2 : (⟨S4096x4096, .f32⟩ : BufTy).Contents (Elt Ideal)) :
    val_main_v20 (F := Ideal) x0 x1 x2 = G x0 x1 x2 := by
  funext i
  obtain ⟨r, c, rfl⟩ : ∃ (r c : Fin 4096), i = ix2 r c := ⟨i 0, i 1, eq_ix2 i⟩
  have el : ∀ k : Fin 4096, lidx_main_v20 (ix2 r c) k = ix2 r k := fun k =>
    funext fun a => by match a with | ⟨0, _⟩ => rfl | ⟨1, _⟩ => rfl
  have er : ∀ k : Fin 4096, ridx_main_v20 (ix2 r c) k = ix2 k c := fun k =>
    funext fun a => by match a with | ⟨0, _⟩ => rfl | ⟨1, _⟩ => rfl
  rw [val_main_v20_apply]
  show _ = ∑ k : Fin 4096, temp x0 x1 r k * x2 (ix2 k c)
  refine Finset.sum_congr rfl fun k _ => ?_
  rw [el, er, mixed_at]

end Cert.GraphConv.Ref

end
-- ==== Proof.lean ====
/-
  The kernel and the reference compute one function of A, h and W on the extended reals.

  Both take the row sums of A, turn them into inverse degrees 1 / (sum + 1), add the identity to A, scale column k by
  the inverse degree of k, mix the outcome half and half with h, and multiply by W.  The reference does each step on
  whole arrays.  The kernel does the row sums in eight blocks of rows, and the rest fused into a tiled matrix product:
  4 bands of rows × 2 halves of columns × 16 slices of the contraction, a 1024 × 2048 accumulator carrying the partial
  sums across a band's slices.  The identity's entries come from comparing global row and column numbers on one side and
  from a comparison bit turned into a float on the other: the same 0 / 1 entries.  The two changes of float format on
  the kernel's side are the identity at the ideal instance.  What remains is that a sum of 4096 terms is the zero word
  plus its sixteen blocks of 256 added in order — addition on the extended reals is commutative and associative, so no
  finiteness of the inputs is used.
  The three frame claims: each kernel program's run is followed buffer by buffer through its two passes and the host
  operations between them, and no step writes an argument; the reference's run is straight-line host code.
-/
import proofs.«101424_j75093208203291_2_alg».proof.Defs
import proofs.«101424_j75093208203291_2_alg».proof.Proof.Gen.Kernel
import proofs.«101424_j75093208203291_2_alg».proof.Proof.Gen.KernelIdeal
import proofs.«101424_j75093208203291_2_alg».proof.Proof.Gen.ReferenceIdeal
import proofs.«101424_j75093208203291_2_alg».proof.Proof.Gen.Pre_finite_inputs
import proofs.«101424_j75093208203291_2_alg».proof.Proof.Gen.ReferenceIdeal.Run
import proofs.«101424_j75093208203291_2_alg».proof.Proof.Gen.ReferenceIdeal.Read
import proofs.«101424_j75093208203291_2_alg».proof.Proof.BitsRun
import proofs.«101424_j75093208203291_2_alg».proof.Proof.KernelValue
import proofs.«101424_j75093208203291_2_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on A, h and W both idealized programs end with the specification of A, h and W in their
    result buffers. -/
theorem algebraic : Cert.algebraic_KernelIdeal_ReferenceIdeal := by
  intro m ρ m' ρ' _ hagree
  refine ⟨fun c => Cert.GraphConv.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.GraphConv.Ref.ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
